-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128x16 .f32) (main_arg9 : FVec F S16 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x16 .f32) (main_arg9 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x128 : Shape := ⟨2, ![320000, 128]⟩
abbrev S1x128 : Shape := ⟨2, ![1, 128]⟩
abbrev S10000x16 : Shape := ⟨2, ![10000, 16]⟩
abbrev S1x16 : Shape := ⟨2, ![1, 16]⟩

abbrev nBuf : Space → Nat
  | .hbm => 139
  | .vmem => 12
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x16, .f32⟩
  | 9 => ⟨S16, .f32⟩
  | 10 => ⟨S1x320000, .i32⟩
  | 11 => ⟨S320000, .i32⟩
  | 12 => ⟨S1x320000, .i32⟩
  | 13 => ⟨S320000, .i32⟩
  | 14 => ⟨S_, .f32⟩
  | 15 => ⟨S10000, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S_, .f32⟩
  | 25 => ⟨S320000, .f32⟩
  | 26 => ⟨S10000, .f32⟩
  | 27 => ⟨S_, .f32⟩
  | 28 => ⟨S10000, .f32⟩
  | 29 => ⟨S10000, .f32⟩
  | 30 => ⟨S_, .f32⟩
  | 31 => ⟨S10000, .f32⟩
  | 32 => ⟨S10000, .f32⟩
  | 33 => ⟨S10000x128, .f32⟩
  | 34 => ⟨S10000x1, .f32⟩
  | 35 => ⟨S10000x128, .f32⟩
  | 36 => ⟨S10000x128, .f32⟩
  | 37 => ⟨S_, .f32⟩
  | 38 => ⟨S10000x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x128, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S10000x128, .f32⟩
  | 57 => ⟨S10000x128, .f32⟩
  | 58 => ⟨S10000x1, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S_, .f32⟩
  | 65 => ⟨S10000x128, .f32⟩
  | 66 => ⟨S10000x128, .f32⟩
  | 67 => ⟨S10000x128, .f32⟩
  | 68 => ⟨S10000x1, .f32⟩
  | 69 => ⟨S10000x128, .f32⟩
  | 70 => ⟨S10000x128, .f32⟩
  | 71 => ⟨S_, .f32⟩
  | 72 => ⟨S10000x128, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x128, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S10000x128, .f32⟩
  | 91 => ⟨S10000x128, .f32⟩
  | 92 => ⟨S10000x1, .f32⟩
  | 93 => ⟨S10000x128, .f32⟩
  | 94 => ⟨S10000x128, .f32⟩
  | 95 => ⟨S1x128, .f32⟩
  | 96 => ⟨S10000x128, .f32⟩
  | 97 => ⟨S10000x128, .f32⟩
  | 98 => ⟨S_, .f32⟩
  | 99 => ⟨S10000x128, .f32⟩
  | 100 => ⟨S10000x128, .f32⟩
  | 101 => ⟨S10000x128, .f32⟩
  | 102 => ⟨S10000x1, .f32⟩
  | 103 => ⟨S10000x128, .f32⟩
  | 104 => ⟨S10000x128, .f32⟩
  | 105 => ⟨S_, .f32⟩
  | 106 => ⟨S10000x128, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000x128, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S10000x128, .f32⟩
  | 125 => ⟨S10000x128, .f32⟩
  | 126 => ⟨S10000x1, .f32⟩
  | 127 => ⟨S10000x128, .f32⟩
  | _ => ⟨S10000x128, .f32⟩

abbrev hbmTy0_1 (i : Nat) : BufTy := match i % 128 with
  | 0 => ⟨S10000x128, .f32⟩
  | 1 => ⟨S1x128, .f32⟩
  | 2 => ⟨S10000x128, .f32⟩
  | 3 => ⟨S10000x128, .f32⟩
  | 4 => ⟨S_, .f32⟩
  | 5 => ⟨S10000x128, .f32⟩
  | 6 => ⟨S10000x128, .f32⟩
  | 7 => ⟨S10000x16, .f32⟩
  | 8 => ⟨S1x16, .f32⟩
  | 9 => ⟨S10000x16, .f32⟩
  | 10 => ⟨S10000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S128x16, .f32⟩
  | .local _ .vmem, ⟨11, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call0_cst : Ref sig .tc := ⟨.hbm, 64, rfl⟩
abbrev main_call0_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_c_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_call2_cst : Ref sig .tc := ⟨.hbm, 132, rfl⟩
abbrev main_call2_v0 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S10000x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  shapeCasts_S10000x128_S10000x128 : S10000x128.ShapeCasts S10000x128
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  scatter_S10000_S320000x1_S320000_n_0_0_1_wf : ScatterDims.WF S10000 S320000x1 S320000 [] [0] [0] 1
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x16_S10000x16_1_0_0_1_n_n_wf : DotDims.WF S10000x128 S128x16 S10000x16 [1] [0] [0] [1] [] []
  hstage0_0 : ∀ j, (stage0_0 j).IsWhole
  hstage0_1 : ∀ j, (stage0_1 j).IsWhole
  hstage0_2 : ∀ j, (stage0_2 j).IsWhole
  hstage1_0 : ∀ j, (stage1_0 j).IsWhole
  hstage1_1 : ∀ j, (stage1_1 j).IsWhole
  hstage1_2 : ∀ j, (stage1_2 j).IsWhole
  hstage2_0 : ∀ j, (stage2_0 j).IsWhole
  hstage2_1 : ∀ j, (stage2_1 j).IsWhole
  hstage2_2 : ∀ j, (stage2_2 j).IsWhole
  hstage3_0 : ∀ j, (stage3_0 j).IsWhole
  hstage3_1 : ∀ j, (stage3_1 j).IsWhole
  hstage3_2 : ∀ j, (stage3_2 j).IsWhole

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v17) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_v43) false false (stage1_0 0) (sem1_0 0) (Memref.isWhole_whole _) (hstage1_0 0)

abbrev win1_1 : Pipeline.Window sig grid1 :=
  Pipeline.Window.whole (Memref.whole main_arg4) false false (stage1_1 0) (sem1_1 0) (Memref.isWhole_whole _) (hstage1_1 0)

abbrev win1_2 : Pipeline.Window sig grid1 :=
  Pipeline.Window.whole (Memref.whole main_v44) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v70) false false (stage2_0 0) (sem2_0 0) (Memref.isWhole_whole _) (hstage2_0 0)

abbrev win2_1 : Pipeline.Window sig grid2 :=
  Pipeline.Window.whole (Memref.whole main_arg6) false false (stage2_1 0) (sem2_1 0) (Memref.isWhole_whole _) (hstage2_1 0)

abbrev win2_2 : Pipeline.Window sig grid2 :=
  Pipeline.Window.whole (Memref.whole main_v71) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.whole (Memref.whole main_v97) false false (stage3_0 0) (sem3_0 0) (Memref.isWhole_whole _) (hstage3_0 0)

abbrev win3_1 : Pipeline.Window sig grid3 :=
  Pipeline.Window.whole (Memref.whole main_arg8) false false (stage3_1 0) (sem3_1 0) (Memref.isWhole_whole _) (hstage3_1 0)

abbrev win3_2 : Pipeline.Window sig grid3 :=
  Pipeline.Window.whole (Memref.whole main_v98) true false (stage3_2 0) (sem3_2 0) (Memref.isWhole_whole _) (hstage3_2 0)

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x128 : Shape := ⟨2, ![330000, 128]⟩
abbrev S1x128 : Shape := ⟨2, ![1, 128]⟩
abbrev S10000x16 : Shape := ⟨2, ![10000, 16]⟩
abbrev S1x16 : Shape := ⟨2, ![1, 16]⟩

abbrev nBuf : Space → Nat
  | .hbm => 251
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x16, .f32⟩
  | 9 => ⟨S16, .f32⟩
  | 10 => ⟨S10000, .i32⟩
  | 11 => ⟨S1x320000, .i32⟩
  | 12 => ⟨S320000, .i32⟩
  | 13 => ⟨S330000, .i32⟩
  | 14 => ⟨S1x320000, .i32⟩
  | 15 => ⟨S320000, .i32⟩
  | 16 => ⟨S330000, .i32⟩
  | 17 => ⟨S_, .f32⟩
  | 18 => ⟨S10000, .f32⟩
  | 19 => ⟨S_, .i32⟩
  | 20 => ⟨S330000, .i32⟩
  | 21 => ⟨S330000, .i1⟩
  | 22 => ⟨S_, .i32⟩
  | 23 => ⟨S330000, .i32⟩
  | 24 => ⟨S330000, .i32⟩
  | 25 => ⟨S330000, .i32⟩
  | 26 => ⟨S330000x1, .i32⟩
  | 27 => ⟨S_, .f32⟩
  | 28 => ⟨S330000, .f32⟩
  | 29 => ⟨S10000, .f32⟩
  | 30 => ⟨S_, .f32⟩
  | 31 => ⟨S10000, .f32⟩
  | 32 => ⟨S10000, .i1⟩
  | 33 => ⟨S_, .f32⟩
  | 34 => ⟨S10000, .f32⟩
  | 35 => ⟨S10000, .f32⟩
  | 36 => ⟨S_, .f32⟩
  | 37 => ⟨S_, .f32⟩
  | 38 => ⟨S10000, .f32⟩
  | 39 => ⟨S10000, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S330000, .f32⟩
  | 49 => ⟨S_, .i32⟩
  | 50 => ⟨S330000, .i32⟩
  | 51 => ⟨S330000, .i1⟩
  | 52 => ⟨S_, .i32⟩
  | 53 => ⟨S330000, .i32⟩
  | 54 => ⟨S330000, .i32⟩
  | 55 => ⟨S330000, .i32⟩
  | 56 => ⟨S330000x1, .i32⟩
  | 57 => ⟨S330000, .f32⟩
  | 58 => ⟨S330000, .f32⟩
  | 59 => ⟨S10000x128, .f32⟩
  | 60 => ⟨S_, .i32⟩
  | 61 => ⟨S330000, .i32⟩
  | 62 => ⟨S330000, .i1⟩
  | 63 => ⟨S_, .i32⟩
  | 64 => ⟨S330000, .i32⟩
  | 65 => ⟨S330000, .i32⟩
  | 66 => ⟨S330000, .i32⟩
  | 67 => ⟨S330000x1, .i32⟩
  | 68 => ⟨S330000x128, .f32⟩
  | 69 => ⟨S330000x1, .f32⟩
  | 70 => ⟨S330000x128, .f32⟩
  | 71 => ⟨S330000x128, .f32⟩
  | 72 => ⟨S_, .f32⟩
  | 73 => ⟨S10000x128, .f32⟩
  | 74 => ⟨S_, .i32⟩
  | 75 => ⟨S330000, .i32⟩
  | 76 => ⟨S330000, .i1⟩
  | 77 => ⟨S_, .i32⟩
  | 78 => ⟨S330000, .i32⟩
  | 79 => ⟨S330000, .i32⟩
  | 80 => ⟨S330000, .i32⟩
  | 81 => ⟨S330000x1, .i32⟩
  | 82 => ⟨S10000x128, .f32⟩
  | 83 => ⟨S1x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S10000, .i32⟩
  | 90 => ⟨S1x320000, .i32⟩
  | 91 => ⟨S320000, .i32⟩
  | 92 => ⟨S330000, .i32⟩
  | 93 => ⟨S1x320000, .i32⟩
  | 94 => ⟨S320000, .i32⟩
  | 95 => ⟨S330000, .i32⟩
  | 96 => ⟨S_, .f32⟩
  | 97 => ⟨S10000, .f32⟩
  | 98 => ⟨S_, .i32⟩
  | 99 => ⟨S330000, .i32⟩
  | 100 => ⟨S330000, .i1⟩
  | 101 => ⟨S_, .i32⟩
  | 102 => ⟨S330000, .i32⟩
  | 103 => ⟨S330000, .i32⟩
  | 104 => ⟨S330000, .i32⟩
  | 105 => ⟨S330000x1, .i32⟩
  | 106 => ⟨S_, .f32⟩
  | 107 => ⟨S330000, .f32⟩
  | 108 => ⟨S10000, .f32⟩
  | 109 => ⟨S_, .f32⟩
  | 110 => ⟨S10000, .f32⟩
  | 111 => ⟨S10000, .i1⟩
  | 112 => ⟨S_, .f32⟩
  | 113 => ⟨S10000, .f32⟩
  | 114 => ⟨S10000, .f32⟩
  | 115 => ⟨S_, .f32⟩
  | 116 => ⟨S_, .f32⟩
  | 117 => ⟨S10000, .f32⟩
  | 118 => ⟨S10000, .f32⟩
  | 119 => ⟨S_, .i32⟩
  | 120 => ⟨S330000, .i32⟩
  | 121 => ⟨S330000, .i1⟩
  | 122 => ⟨S_, .i32⟩
  | 123 => ⟨S330000, .i32⟩
  | 124 => ⟨S330000, .i32⟩
  | 125 => ⟨S330000, .i32⟩
  | 126 => ⟨S330000x1, .i32⟩
  | 127 => ⟨S330000, .f32⟩
  | _ => ⟨S10000x128, .f32⟩

abbrev hbmTy0_1 (i : Nat) : BufTy := match i % 128 with
  | 0 => ⟨S_, .i32⟩
  | 1 => ⟨S330000, .i32⟩
  | 2 => ⟨S330000, .i1⟩
  | 3 => ⟨S_, .i32⟩
  | 4 => ⟨S330000, .i32⟩
  | 5 => ⟨S330000, .i32⟩
  | 6 => ⟨S330000, .i32⟩
  | 7 => ⟨S330000x1, .i32⟩
  | 8 => ⟨S330000, .f32⟩
  | 9 => ⟨S330000, .f32⟩
  | 10 => ⟨S10000x128, .f32⟩
  | 11 => ⟨S_, .i32⟩
  | 12 => ⟨S330000, .i32⟩
  | 13 => ⟨S330000, .i1⟩
  | 14 => ⟨S_, .i32⟩
  | 15 => ⟨S330000, .i32⟩
  | 16 => ⟨S330000, .i32⟩
  | 17 => ⟨S330000, .i32⟩
  | 18 => ⟨S330000x1, .i32⟩
  | 19 => ⟨S330000x128, .f32⟩
  | 20 => ⟨S330000x1, .f32⟩
  | 21 => ⟨S330000x128, .f32⟩
  | 22 => ⟨S330000x128, .f32⟩
  | 23 => ⟨S_, .f32⟩
  | 24 => ⟨S10000x128, .f32⟩
  | 25 => ⟨S_, .i32⟩
  | 26 => ⟨S330000, .i32⟩
  | 27 => ⟨S330000, .i1⟩
  | 28 => ⟨S_, .i32⟩
  | 29 => ⟨S330000, .i32⟩
  | 30 => ⟨S330000, .i32⟩
  | 31 => ⟨S330000, .i32⟩
  | 32 => ⟨S330000x1, .i32⟩
  | 33 => ⟨S10000x128, .f32⟩
  | 34 => ⟨S1x128, .f32⟩
  | 35 => ⟨S10000x128, .f32⟩
  | 36 => ⟨S10000x128, .f32⟩
  | 37 => ⟨S_, .f32⟩
  | 38 => ⟨S10000x128, .f32⟩
  | 39 => ⟨S10000x128, .f32⟩
  | 40 => ⟨S10000, .i32⟩
  | 41 => ⟨S1x320000, .i32⟩
  | 42 => ⟨S320000, .i32⟩
  | 43 => ⟨S330000, .i32⟩
  | 44 => ⟨S1x320000, .i32⟩
  | 45 => ⟨S320000, .i32⟩
  | 46 => ⟨S330000, .i32⟩
  | 47 => ⟨S_, .f32⟩
  | 48 => ⟨S10000, .f32⟩
  | 49 => ⟨S_, .i32⟩
  | 50 => ⟨S330000, .i32⟩
  | 51 => ⟨S330000, .i1⟩
  | 52 => ⟨S_, .i32⟩
  | 53 => ⟨S330000, .i32⟩
  | 54 => ⟨S330000, .i32⟩
  | 55 => ⟨S330000, .i32⟩
  | 56 => ⟨S330000x1, .i32⟩
  | 57 => ⟨S_, .f32⟩
  | 58 => ⟨S330000, .f32⟩
  | 59 => ⟨S10000, .f32⟩
  | 60 => ⟨S_, .f32⟩
  | 61 => ⟨S10000, .f32⟩
  | 62 => ⟨S10000, .i1⟩
  | 63 => ⟨S_, .f32⟩
  | 64 => ⟨S10000, .f32⟩
  | 65 => ⟨S10000, .f32⟩
  | 66 => ⟨S_, .f32⟩
  | 67 => ⟨S_, .f32⟩
  | 68 => ⟨S10000, .f32⟩
  | 69 => ⟨S10000, .f32⟩
  | 70 => ⟨S_, .i32⟩
  | 71 => ⟨S330000, .i32⟩
  | 72 => ⟨S330000, .i1⟩
  | 73 => ⟨S_, .i32⟩
  | 74 => ⟨S330000, .i32⟩
  | 75 => ⟨S330000, .i32⟩
  | 76 => ⟨S330000, .i32⟩
  | 77 => ⟨S330000x1, .i32⟩
  | 78 => ⟨S330000, .f32⟩
  | 79 => ⟨S_, .i32⟩
  | 80 => ⟨S330000, .i32⟩
  | 81 => ⟨S330000, .i1⟩
  | 82 => ⟨S_, .i32⟩
  | 83 => ⟨S330000, .i32⟩
  | 84 => ⟨S330000, .i32⟩
  | 85 => ⟨S330000, .i32⟩
  | 86 => ⟨S330000x1, .i32⟩
  | 87 => ⟨S330000, .f32⟩
  | 88 => ⟨S330000, .f32⟩
  | 89 => ⟨S10000x128, .f32⟩
  | 90 => ⟨S_, .i32⟩
  | 91 => ⟨S330000, .i32⟩
  | 92 => ⟨S330000, .i1⟩
  | 93 => ⟨S_, .i32⟩
  | 94 => ⟨S330000, .i32⟩
  | 95 => ⟨S330000, .i32⟩
  | 96 => ⟨S330000, .i32⟩
  | 97 => ⟨S330000x1, .i32⟩
  | 98 => ⟨S330000x128, .f32⟩
  | 99 => ⟨S330000x1, .f32⟩
  | 100 => ⟨S330000x128, .f32⟩
  | 101 => ⟨S330000x128, .f32⟩
  | 102 => ⟨S_, .f32⟩
  | 103 => ⟨S10000x128, .f32⟩
  | 104 => ⟨S_, .i32⟩
  | 105 => ⟨S330000, .i32⟩
  | 106 => ⟨S330000, .i1⟩
  | 107 => ⟨S_, .i32⟩
  | 108 => ⟨S330000, .i32⟩
  | 109 => ⟨S330000, .i32⟩
  | 110 => ⟨S330000, .i32⟩
  | 111 => ⟨S330000x1, .i32⟩
  | 112 => ⟨S10000x128, .f32⟩
  | 113 => ⟨S1x128, .f32⟩
  | 114 => ⟨S10000x128, .f32⟩
  | 115 => ⟨S10000x128, .f32⟩
  | 116 => ⟨S_, .f32⟩
  | 117 => ⟨S10000x128, .f32⟩
  | 118 => ⟨S10000x128, .f32⟩
  | 119 => ⟨S10000x16, .f32⟩
  | 120 => ⟨S1x16, .f32⟩
  | 121 => ⟨S10000x16, .f32⟩
  | 122 => ⟨S10000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call1_cst : Ref sig .tc := ⟨.hbm, 86, rfl⟩
abbrev main_call1_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_17 : Ref sig .tc := ⟨.hbm, 106, rfl⟩
abbrev main_v73 : Ref sig .tc := ⟨.hbm, 107, rfl⟩
abbrev main_v74 : Ref sig .tc := ⟨.hbm, 108, rfl⟩
abbrev main_cst_18 : Ref sig .tc := ⟨.hbm, 109, rfl⟩
abbrev main_v75 : Ref sig .tc := ⟨.hbm, 110, rfl⟩
abbrev main_v76 : Ref sig .tc := ⟨.hbm, 111, rfl⟩
abbrev main_cst_19 : Ref sig .tc := ⟨.hbm, 112, rfl⟩
abbrev main_v77 : Ref sig .tc := ⟨.hbm, 113, rfl⟩
abbrev main_v78 : Ref sig .tc := ⟨.hbm, 114, rfl⟩
abbrev main_cst_20 : Ref sig .tc := ⟨.hbm, 115, rfl⟩
abbrev main_call2_v0 : Ref sig .tc := ⟨.hbm, 116, rfl⟩
abbrev main_call2_v1 : Ref sig .tc := ⟨.hbm, 117, rfl⟩
abbrev main_v79 : Ref sig .tc := ⟨.hbm, 118, rfl⟩
abbrev main_c_21 : Ref sig .tc := ⟨.hbm, 119, rfl⟩
abbrev main_v80 : Ref sig .tc := ⟨.hbm, 120, rfl⟩
abbrev main_v81 : Ref sig .tc := ⟨.hbm, 121, rfl⟩
abbrev main_c_22 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_23 : Ref sig .tc := ⟨.hbm, 128, rfl⟩
abbrev main_v87 : Ref sig .tc := ⟨.hbm, 129, rfl⟩
abbrev main_v88 : Ref sig .tc := ⟨.hbm, 130, rfl⟩
abbrev main_c_24 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_c_25 : Ref sig .tc := ⟨.hbm, 139, rfl⟩
abbrev main_v96 : Ref sig .tc := ⟨.hbm, 140, rfl⟩
abbrev main_v97 : Ref sig .tc := ⟨.hbm, 141, rfl⟩
abbrev main_c_26 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_27 : Ref sig .tc := ⟨.hbm, 151, rfl⟩
abbrev main_v106 : Ref sig .tc := ⟨.hbm, 152, rfl⟩
abbrev main_c_28 : Ref sig .tc := ⟨.hbm, 153, rfl⟩
abbrev main_v107 : Ref sig .tc := ⟨.hbm, 154, rfl⟩
abbrev main_v108 : Ref sig .tc := ⟨.hbm, 155, rfl⟩
abbrev main_c_29 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_call3_cst : Ref sig .tc := ⟨.hbm, 165, rfl⟩
abbrev main_call3_v0 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_30 : Ref sig .tc := ⟨.hbm, 175, rfl⟩
abbrev main_v125 : Ref sig .tc := ⟨.hbm, 176, rfl⟩
abbrev main_c_31 : Ref sig .tc := ⟨.hbm, 177, rfl⟩
abbrev main_v126 : Ref sig .tc := ⟨.hbm, 178, rfl⟩
abbrev main_v127 : Ref sig .tc := ⟨.hbm, 179, rfl⟩
abbrev main_c_32 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_33 : Ref sig .tc := ⟨.hbm, 185, rfl⟩
abbrev main_v132 : Ref sig .tc := ⟨.hbm, 186, rfl⟩
abbrev main_v133 : Ref sig .tc := ⟨.hbm, 187, rfl⟩
abbrev main_cst_34 : Ref sig .tc := ⟨.hbm, 188, rfl⟩
abbrev main_v134 : Ref sig .tc := ⟨.hbm, 189, rfl⟩
abbrev main_v135 : Ref sig .tc := ⟨.hbm, 190, rfl⟩
abbrev main_cst_35 : Ref sig .tc := ⟨.hbm, 191, rfl⟩
abbrev main_v136 : Ref sig .tc := ⟨.hbm, 192, rfl⟩
abbrev main_v137 : Ref sig .tc := ⟨.hbm, 193, rfl⟩
abbrev main_cst_36 : Ref sig .tc := ⟨.hbm, 194, rfl⟩
abbrev main_call4_v0 : Ref sig .tc := ⟨.hbm, 195, rfl⟩
abbrev main_call4_v1 : Ref sig .tc := ⟨.hbm, 196, rfl⟩
abbrev main_v138 : Ref sig .tc := ⟨.hbm, 197, rfl⟩
abbrev main_c_37 : Ref sig .tc := ⟨.hbm, 198, rfl⟩
abbrev main_v139 : Ref sig .tc := ⟨.hbm, 199, rfl⟩
abbrev main_v140 : Ref sig .tc := ⟨.hbm, 200, rfl⟩
abbrev main_c_38 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_c_39 : Ref sig .tc := ⟨.hbm, 207, rfl⟩
abbrev main_v146 : Ref sig .tc := ⟨.hbm, 208, rfl⟩
abbrev main_v147 : Ref sig .tc := ⟨.hbm, 209, rfl⟩
abbrev main_c_40 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_c_41 : Ref sig .tc := ⟨.hbm, 218, rfl⟩
abbrev main_v155 : Ref sig .tc := ⟨.hbm, 219, rfl⟩
abbrev main_v156 : Ref sig .tc := ⟨.hbm, 220, rfl⟩
abbrev main_c_42 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_cst_43 : Ref sig .tc := ⟨.hbm, 230, rfl⟩
abbrev main_v165 : Ref sig .tc := ⟨.hbm, 231, rfl⟩
abbrev main_c_44 : Ref sig .tc := ⟨.hbm, 232, rfl⟩
abbrev main_v166 : Ref sig .tc := ⟨.hbm, 233, rfl⟩
abbrev main_v167 : Ref sig .tc := ⟨.hbm, 234, rfl⟩
abbrev main_c_45 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_call5_cst : Ref sig .tc := ⟨.hbm, 244, rfl⟩
abbrev main_call5_v0 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S10000 : S_.BroadcastsInDim S10000 (![] : Fin 0 → Fin S10000.rank)
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x128_S128x128_S10000x128_1_0_0_1_n_n_wf : DotDims.WF S10000x128 S128x128 S10000x128 [1] [0] [0] [1] [] []
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x16_S10000x16_1_0_0_1_n_n_wf : DotDims.WF S10000x128 S128x16 S10000x16 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

class Facts : Prop extends Facts₀ where

variable [Facts]
-- ==== Proof.KRun.lean ====
/-
  The first program's run with every buffer kept: every weakly fair execution of the whole program (four matrix
  products on the TensorCore among stretches of host operations) terminates, and each unscoped buffer of each core ends
  at the contents the fold through the program's stretches and regions gives it.  The frame statement keeps only the
  argument arrays of this; the value statement reads the two result arrays off the same fold.
-/
import proofs.«146790_g51402168598780_cont_8to1c4_406_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every unscoped buffer of every core at the fold's last contents. -/
theorem run_bufs : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W12 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c b hb => h c _ (mem_uc b hb))

end Cert.KernelIdeal.KRun

end
-- ==== Proof.KRegions.lean ====
/-
  The four matrix products on the TensorCore, each a pallas_call with no grid: its three windows are whole arrays at
  block index 0, the one grid point fetches both operands whole, and what it writes back covers the output array.  So
  after a region its output array holds the body's product of the two arrays the region was entered with, whatever
  those are.
-/
import proofs.«146790_g51402168598780_cont_8to1c4_406_2_alg».proof.Proof.Gen.KernelIdeal.Frame
import Idealize.ShloMosaic.Lib.Pipeline.Value

set_option maxRecDepth 16384

noncomputable section

namespace Cert.KernelIdeal.KRegions

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## Region 0 -/

/-- Every window of region 0 sits at block index 0 on both axes (decided over its one grid point). -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The left operand's block is the whole left array as the region finds it. -/
theorem iblk0_0 (c : Dev nD) (t : Fin cfg0.N) : iblk0 V c 0 t = V c (Pipeline.arrRef spec0 0) := by
  obtain ⟨e0, e1, -, -, -, -⟩ := idx0 t
  funext y
  show V c (Pipeline.arrRef spec0 0) (((cfg0.win 0).blk t).view.emb y) = V c (Pipeline.arrRef spec0 0) y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The right operand's block is the whole right array as the region finds it. -/
theorem iblk0_1 (c : Dev nD) (t : Fin cfg0.N) : iblk0 V c 1 t = V c (Pipeline.arrRef spec0 1) := by
  obtain ⟨-, -, e2, e3, -, -⟩ := idx0 t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the one point writes back is the product of the two whole arrays, read through the output's block. -/
theorem flushed0 (c : Dev nD) (t : Fin cfg0.N) :
    (dat0 V c).flushed 2 t = ((cfg0.win 2).blk t).view.read (Elt F)
      (k0_pay1 (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [iblk0_0, iblk0_1]
  obtain ⟨-, -, -, -, e4, e5⟩ := idx0 t
  funext j
  show k0_pay1 (V c (Pipeline.arrRef spec0 0)) (V c (Pipeline.arrRef spec0 1)) j
    = k0_pay1 (V c (Pipeline.arrRef spec0 0)) (V c (Pipeline.arrRef spec0 1)) (((cfg0.win 2).blk t).view.emb j)
  refine congrArg _ (funext fun a => Fin.ext ?_)
  match a with
  | ⟨0, _⟩ => show (j 0).val = win0_2.index t (0 : Fin 2) * 10000 + 1 * (j 0).val; omega
  | ⟨1, _⟩ => show (j 1).val = win0_2.index t (1 : Fin 2) * 128 + 1 * (j 1).val; omega

/-- An index of the output array is in the point's block iff each coordinate is in the block's range. -/
theorem mem_blk0 (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v17).slice (win0_2.rect t)).set ↔ _
  rw [View.set_slice_whole, Rect.mem_set_unit]
  exact Iff.rfl

/-- REGION 0'S OUTPUT ARRAY after the region: the product of the two arrays it was entered with. -/
theorem region0 (c : Dev nD) :
    (dat0 V c).arrAt 2 cfg0.N = k0_pay1 (V c (Pipeline.arrRef spec0 0)) (V c (Pipeline.arrRef spec0 1)) :=
  (dat0 V c).arrAt_eq_of_cover 2 _ (fun t _ => flushed0 V c t) (fun i => ⟨t0_0, flush0_2 _, (mem_blk0 _ i).2 (fun a => by
    obtain ⟨-, -, -, -, e4, e5⟩ := idx0 t0_0
    match a with
    | ⟨0, _⟩ =>
      show win0_2.index t0_0 (0 : Fin 2) * 10000 ≤ (i 0).val ∧ (i 0).val < win0_2.index t0_0 (0 : Fin 2) * 10000 + 10000
      have h : (i 0).val < 10000 := (i 0).isLt
      omega
    | ⟨1, _⟩ =>
      show win0_2.index t0_0 (1 : Fin 2) * 128 ≤ (i 1).val ∧ (i 1).val < win0_2.index t0_0 (1 : Fin 2) * 128 + 128
      have h : (i 1).val < 128 := (i 1).isLt
      omega)⟩)

/-! ## Region 1 -/

/-- Every window of region 1 sits at block index 0 on both axes (decided over its one grid point). -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The left operand's block is the whole left array as the region finds it. -/
theorem iblk1_0 (c : Dev nD) (t : Fin cfg1.N) : iblk1 V c 0 t = V c (Pipeline.arrRef spec1 0) := by
  obtain ⟨e0, e1, -, -, -, -⟩ := idx1 t
  funext y
  show V c (Pipeline.arrRef spec1 0) (((cfg1.win 0).blk t).view.emb y) = V c (Pipeline.arrRef spec1 0) y
  refine congrArg _ (funext fun a => Fin.ext ?_)
  match a with
  | ⟨0, _⟩ => show win1_0.index t (0 : Fin 2) * 10000 + 1 * (y 0).val = (y 0).val; omega
  | ⟨1, _⟩ => show win1_0.index t (1 : Fin 2) * 128 + 1 * (y 1).val = (y 1).val; omega

/-- The right operand's block is the whole right array as the region finds it. -/
theorem iblk1_1 (c : Dev nD) (t : Fin cfg1.N) : iblk1 V c 1 t = V c (Pipeline.arrRef spec1 1) := by
  obtain ⟨-, -, e2, e3, -, -⟩ := idx1 t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- What the one point writes back is the product of the two whole arrays, read through the output's block. -/
theorem flushed1 (c : Dev nD) (t : Fin cfg1.N) :
    (dat1 V c).flushed 2 t = ((cfg1.win 2).blk t).view.read (Elt F)
      (k1_pay1 (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  rw [iblk1_0, iblk1_1]
  obtain ⟨-, -, -, -, e4, e5⟩ := idx1 t
  funext j
  show k1_pay1 (V c (Pipeline.arrRef spec1 0)) (V c (Pipeline.arrRef spec1 1)) j
    = k1_pay1 (V c (Pipeline.arrRef spec1 0)) (V c (Pipeline.arrRef spec1 1)) (((cfg1.win 2).blk t).view.emb j)
  refine congrArg _ (funext fun a => Fin.ext ?_)
  match a with
  | ⟨0, _⟩ => show (j 0).val = win1_2.index t (0 : Fin 2) * 10000 + 1 * (j 0).val; omega
  | ⟨1, _⟩ => show (j 1).val = win1_2.index t (1 : Fin 2) * 128 + 1 * (j 1).val; omega

/-- An index of the output array is in the point's block iff each coordinate is in the block's range. -/
theorem mem_blk1 (t : Fin cfg1.N) (i : S10000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v44).slice (win1_2.rect t)).set ↔ _
  rw [View.set_slice_whole, Rect.mem_set_unit]
  exact Iff.rfl

/-- REGION 1'S OUTPUT ARRAY after the region: the product of the two arrays it was entered with. -/
theorem region1 (c : Dev nD) :
    (dat1 V c).arrAt 2 cfg1.N = k1_pay1 (V c (Pipeline.arrRef spec1 0)) (V c (Pipeline.arrRef spec1 1)) :=
  (dat1 V c).arrAt_eq_of_cover 2 _ (fun t _ => flushed1 V c t) (fun i => ⟨t1_0, flush1_2 _, (mem_blk1 _ i).2 (fun a => by
    obtain ⟨-, -, -, -, e4, e5⟩ := idx1 t1_0
    match a with
    | ⟨0, _⟩ =>
      show win1_2.index t1_0 (0 : Fin 2) * 10000 ≤ (i 0).val ∧ (i 0).val < win1_2.index t1_0 (0 : Fin 2) * 10000 + 10000
      have h : (i 0).val < 10000 := (i 0).isLt
      omega
    | ⟨1, _⟩ =>
      show win1_2.index t1_0 (1 : Fin 2) * 128 ≤ (i 1).val ∧ (i 1).val < win1_2.index t1_0 (1 : Fin 2) * 128 + 128
      have h : (i 1).val < 128 := (i 1).isLt
      omega)⟩)

/-! ## Region 2 -/

/-- Every window of region 2 sits at block index 0 on both axes (decided over its one grid point). -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The left operand's block is the whole left array as the region finds it. -/
theorem iblk2_0 (c : Dev nD) (t : Fin cfg2.N) : iblk2 V c 0 t = V c (Pipeline.arrRef spec2 0) := by
  obtain ⟨e0, e1, -, -, -, -⟩ := idx2 t
  funext y
  show V c (Pipeline.arrRef spec2 0) (((cfg2.win 0).blk t).view.emb y) = V c (Pipeline.arrRef spec2 0) y
  refine congrArg _ (funext fun a => Fin.ext ?_)
  match a with
  | ⟨0, _⟩ => show win2_0.index t (0 : Fin 2) * 10000 + 1 * (y 0).val = (y 0).val; omega
  | ⟨1, _⟩ => show win2_0.index t (1 : Fin 2) * 128 + 1 * (y 1).val = (y 1).val; omega

/-- The right operand's block is the whole right array as the region finds it. -/
theorem iblk2_1 (c : Dev nD) (t : Fin cfg2.N) : iblk2 V c 1 t = V c (Pipeline.arrRef spec2 1) := by
  obtain ⟨-, -, e2, e3, -, -⟩ := idx2 t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- What the one point writes back is the product of the two whole arrays, read through the output's block. -/
theorem flushed2 (c : Dev nD) (t : Fin cfg2.N) :
    (dat2 V c).flushed 2 t = ((cfg2.win 2).blk t).view.read (Elt F)
      (k2_pay1 (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  rw [iblk2_0, iblk2_1]
  obtain ⟨-, -, -, -, e4, e5⟩ := idx2 t
  funext j
  show k2_pay1 (V c (Pipeline.arrRef spec2 0)) (V c (Pipeline.arrRef spec2 1)) j
    = k2_pay1 (V c (Pipeline.arrRef spec2 0)) (V c (Pipeline.arrRef spec2 1)) (((cfg2.win 2).blk t).view.emb j)
  refine congrArg _ (funext fun a => Fin.ext ?_)
  match a with
  | ⟨0, _⟩ => show (j 0).val = win2_2.index t (0 : Fin 2) * 10000 + 1 * (j 0).val; omega
  | ⟨1, _⟩ => show (j 1).val = win2_2.index t (1 : Fin 2) * 128 + 1 * (j 1).val; omega

/-- An index of the output array is in the point's block iff each coordinate is in the block's range. -/
theorem mem_blk2 (t : Fin cfg2.N) (i : S10000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v71).slice (win2_2.rect t)).set ↔ _
  rw [View.set_slice_whole, Rect.mem_set_unit]
  exact Iff.rfl

/-- REGION 2'S OUTPUT ARRAY after the region: the product of the two arrays it was entered with. -/
theorem region2 (c : Dev nD) :
    (dat2 V c).arrAt 2 cfg2.N = k2_pay1 (V c (Pipeline.arrRef spec2 0)) (V c (Pipeline.arrRef spec2 1)) :=
  (dat2 V c).arrAt_eq_of_cover 2 _ (fun t _ => flushed2 V c t) (fun i => ⟨t2_0, flush2_2 _, (mem_blk2 _ i).2 (fun a => by
    obtain ⟨-, -, -, -, e4, e5⟩ := idx2 t2_0
    match a with
    | ⟨0, _⟩ =>
      show win2_2.index t2_0 (0 : Fin 2) * 10000 ≤ (i 0).val ∧ (i 0).val < win2_2.index t2_0 (0 : Fin 2) * 10000 + 10000
      have h : (i 0).val < 10000 := (i 0).isLt
      omega
    | ⟨1, _⟩ =>
      show win2_2.index t2_0 (1 : Fin 2) * 128 ≤ (i 1).val ∧ (i 1).val < win2_2.index t2_0 (1 : Fin 2) * 128 + 128
      have h : (i 1).val < 128 := (i 1).isLt
      omega)⟩)

/-! ## Region 3 -/

/-- Every window of region 3 sits at block index 0 on both axes (decided over its one grid point). -/
theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- The left operand's block is the whole left array as the region finds it. -/
theorem iblk3_0 (c : Dev nD) (t : Fin cfg3.N) : iblk3 V c 0 t = V c (Pipeline.arrRef spec3 0) := by
  obtain ⟨e0, e1, -, -, -, -⟩ := idx3 t
  funext y
  show V c (Pipeline.arrRef spec3 0) (((cfg3.win 0).blk t).view.emb y) = V c (Pipeline.arrRef spec3 0) y
  refine congrArg _ (funext fun a => Fin.ext ?_)
  match a with
  | ⟨0, _⟩ => show win3_0.index t (0 : Fin 2) * 10000 + 1 * (y 0).val = (y 0).val; omega
  | ⟨1, _⟩ => show win3_0.index t (1 : Fin 2) * 128 + 1 * (y 1).val = (y 1).val; omega

/-- The right operand's block is the whole right array as the region finds it. -/
theorem iblk3_1 (c : Dev nD) (t : Fin cfg3.N) : iblk3 V c 1 t = V c (Pipeline.arrRef spec3 1) := by
  obtain ⟨-, -, e2, e3, -, -⟩ := idx3 t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 16 + 1 * (y 1).val = (y 1).val; omega

/-- What the one point writes back is the product of the two whole arrays, read through the output's block. -/
theorem flushed3 (c : Dev nD) (t : Fin cfg3.N) :
    (dat3 V c).flushed 2 t = ((cfg3.win 2).blk t).view.read (Elt F)
      (k3_pay1 (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x16) hz]
  rw [iblk3_0, iblk3_1]
  obtain ⟨-, -, -, -, e4, e5⟩ := idx3 t
  funext j
  show k3_pay1 (V c (Pipeline.arrRef spec3 0)) (V c (Pipeline.arrRef spec3 1)) j
    = k3_pay1 (V c (Pipeline.arrRef spec3 0)) (V c (Pipeline.arrRef spec3 1)) (((cfg3.win 2).blk t).view.emb j)
  refine congrArg _ (funext fun a => Fin.ext ?_)
  match a with
  | ⟨0, _⟩ => show (j 0).val = win3_2.index t (0 : Fin 2) * 10000 + 1 * (j 0).val; omega
  | ⟨1, _⟩ => show (j 1).val = win3_2.index t (1 : Fin 2) * 16 + 1 * (j 1).val; omega

/-- An index of the output array is in the point's block iff each coordinate is in the block's range. -/
theorem mem_blk3 (t : Fin cfg3.N) (i : S10000x16.Idx) :
    i ∈ ((cfg3.win 2).blk t).view.set ↔ ∀ a : Fin 2, win3_2.index t a * S10000x16.size a ≤ (i a).val
      ∧ (i a).val < win3_2.index t a * S10000x16.size a + S10000x16.size a := by
  show i ∈ ((View.whole main_v98).slice (win3_2.rect t)).set ↔ _
  rw [View.set_slice_whole, Rect.mem_set_unit]
  exact Iff.rfl

/-- REGION 3'S OUTPUT ARRAY after the region: the product of the two arrays it was entered with. -/
theorem region3 (c : Dev nD) :
    (dat3 V c).arrAt 2 cfg3.N = k3_pay1 (V c (Pipeline.arrRef spec3 0)) (V c (Pipeline.arrRef spec3 1)) :=
  (dat3 V c).arrAt_eq_of_cover 2 _ (fun t _ => flushed3 V c t) (fun i => ⟨t3_0, flush3_2 _, (mem_blk3 _ i).2 (fun a => by
    obtain ⟨-, -, -, -, e4, e5⟩ := idx3 t3_0
    match a with
    | ⟨0, _⟩ =>
      show win3_2.index t3_0 (0 : Fin 2) * 10000 ≤ (i 0).val ∧ (i 0).val < win3_2.index t3_0 (0 : Fin 2) * 10000 + 10000
      have h : (i 0).val < 10000 := (i 0).isLt
      omega
    | ⟨1, _⟩ =>
      show win3_2.index t3_0 (1 : Fin 2) * 16 ≤ (i 1).val ∧ (i 1).val < win3_2.index t3_0 (1 : Fin 2) * 16 + 16
      have h : (i 1).val < 16 := (i 1).isLt
      omega)⟩)

end Cert.KernelIdeal.KRegions

end
-- ==== Proof.LibScatterRows.lean ====
/-
  A general lemma: the host's accumulating float `stablehlo.scatter` of ROWS, read at an index as a sum.

  What `jax.ops.segment_sum(upd, idx, N)` lowers to: a scatter with an `add` body whose scatter indices are the
  integer vector `idx : [R]` laid out as a column `[R, 1]` (index vector on axis 1), the operand's leading axis
  inserted, scatter-dims-to-operand-dims `[0]`.  Update row `k` lands on operand row `p` exactly when the
  index word `idx[k, 0]`, read as a SIGNED integer and not clamped, is `p`; a row whose word names no operand
  row is dropped.  So at the extended reals the result at row `p` is the operand there plus the sum of the update
  rows that land on `p`: for a flat update `[R]` into `[N]`, and for rows of `C` features `[R, C]` into
  `[N, C]`, feature by feature.
-/
import Idealize.ShloMosaic.PureOps.Ideal
import Idealize.ShloMosaic.Lib.ValueIdx

noncomputable section

namespace Idealize.ShloMosaic.ScatterRows

open Idealize.ShloMosaic Idealize.ShloMosaic.ValueIdx

/-! ## A flat update `[R]` into `[N]` -/

/-- The dimension numbers of a segment sum of a flat `[R]` update into `[N]`. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section flat
variable {N R w : Nat} (wf : ScatterDims.WF ⟨1, ![N]⟩ ⟨2, ![R, 1]⟩ ⟨1, ![R]⟩ [] [0] [0] 1)
  (idx : IVec ⟨2, ![R, 1]⟩ w)

/-- On the operand's one axis the landing coordinate of update `k` is its index word read signed. -/
theorem flat_coord (k : Fin R) (a : Fin 1) :
    (flatDims N R wf).start (ix1 k) idx a + ((flatDims N R wf).window (ix1 k) a : Int)
      = (idx (ix2 k (0 : Fin 1))).toInt := by
  obtain rfl : a = 0 := Subsingleton.elim _ _
  have hw : (flatDims N R wf).window (ix1 k) 0 = 0 := by
    unfold ScatterDims.window
    rw [dif_neg (by simp [ScatterDims.sKept, Shape.kept])]
  rw [hw]
  unfold ScatterDims.start
  rw [dif_pos (show (0 : Fin 1) ∈ (flatDims N R wf).scatterDimsToOperandDims from List.mem_singleton.mpr rfl)]
  have hsi : (flatDims N R wf).siIdx (ix1 k) ⟨List.idxOf (0 : Fin 1) (flatDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- Update `k` lands on operand row `p` exactly when its index word, read signed, is `p`. -/
theorem flat_lands_iff (k : Fin R) (p : Fin N) :
    (flatDims N R wf).resultIdx? (ix1 k) idx = some (ix1 p) ↔ (idx (ix2 k (0 : Fin 1))).toInt = (p.val : Int) := by
  unfold ScatterDims.resultIdx?
  constructor
  · intro h
    split at h
    · have h0 := congrFun (Option.some.inj h) (0 : Fin 1)
      have h1 : ((flatDims N R wf).start (ix1 k) idx 0 + ((flatDims N R wf).window (ix1 k) 0 : Int)).toNat = p.val :=
        congrArg Fin.val h0
      rename_i hall
      have h2 := (hall 0).1
      rw [flat_coord] at h1 h2
      omega
    · cases h
  · intro hv
    have hall : ∀ a : Fin 1, 0 ≤ (flatDims N R wf).start (ix1 k) idx a + ((flatDims N R wf).window (ix1 k) a : Int)
        ∧ (flatDims N R wf).start (ix1 k) idx a + ((flatDims N R wf).window (ix1 k) a : Int)
          < ((⟨1, ![N]⟩ : Shape).size a : Int) := by
      intro a
      rw [flat_coord, hv]
      obtain rfl : a = 0 := Subsingleton.elim _ _
      have : (⟨1, ![N]⟩ : Shape).size 0 = N := rfl
      rw [this]
      have := p.isLt
      omega
    rw [dif_pos hall]
    congr 1
    funext a
    obtain rfl : a = 0 := Subsingleton.elim _ _
    refine Fin.ext ?_
    show ((flatDims N R wf).start (ix1 k) idx 0 + ((flatDims N R wf).window (ix1 k) 0 : Int)).toNat = p.val
    rw [flat_coord, hv]
    simp

/-- THE FLAT SCATTER-ADD READ AT ROW `p`: the operand there plus the sum of the updates landing on `p`. -/
theorem scatterAdd_flat_apply (x : (⟨1, ![N]⟩ : Shape).Idx → EReal) (upd : (⟨1, ![R]⟩ : Shape).Idx → EReal)
    (p : Fin N) :
    Ideal.hostScatterAdd (flatDims N R wf) x idx upd (ix1 p)
      = x (ix1 p) + ∑ k ∈ Finset.univ.filter (fun k : Fin R => (idx (ix2 k (0 : Fin 1))).toInt = (p.val : Int)),
          upd (ix1 k) := by
  unfold Ideal.hostScatterAdd
  congr 1
  rw [Finset.sum_filter, Finset.sum_filter]
  let e : (⟨1, ![R]⟩ : Shape).Idx ≃ Fin R :=
    { toFun := fun j => j 0, invFun := ix1, left_inv := fun j => (eq_ix1 j).symm, right_inv := fun _ => rfl }
  refine Fintype.sum_equiv e _ _ (fun j => ?_)
  obtain ⟨k, rfl⟩ : ∃ k : Fin R, j = ix1 k := ⟨j 0, eq_ix1 j⟩
  exact if_congr (flat_lands_iff wf idx k p) rfl rfl

end flat

/-! ## Rows of `C` features `[R, C]` into `[N, C]` -/

/-- The dimension numbers of a segment sum of `[R, C]` rows into `[N, C]`. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section rows
variable {N R C w : Nat} (wf : ScatterDims.WF ⟨2, ![N, C]⟩ ⟨2, ![R, 1]⟩ ⟨2, ![R, C]⟩ [1] [0] [0] 1)
  (idx : IVec ⟨2, ![R, 1]⟩ w)

/-- On the node axis the landing coordinate of update `(k, f)` is row `k`'s index word read signed. -/
theorem row_coord0 (k : Fin R) (f : Fin C) :
    (rowDims N R C wf).start (ix2 k f) idx 0 + ((rowDims N R C wf).window (ix2 k f) 0 : Int)
      = (idx (ix2 k (0 : Fin 1))).toInt := by
  have hw : (rowDims N R C wf).window (ix2 k f) 0 = 0 := by
    unfold ScatterDims.window
    rw [dif_neg (by simp [ScatterDims.sKept, Shape.kept])]
  rw [hw]
  unfold ScatterDims.start
  rw [dif_pos (show (0 : Fin 2) ∈ (rowDims N R C wf).scatterDimsToOperandDims from List.mem_singleton.mpr rfl)]
  have hsi : (rowDims N R C wf).siIdx (ix2 k f) ⟨List.idxOf (0 : Fin 2) (rowDims N R C wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- On the feature axis the landing coordinate of update `(k, f)` is `f`. -/
theorem row_coord1 (k : Fin R) (f : Fin C) :
    (rowDims N R C wf).start (ix2 k f) idx 1 + ((rowDims N R C wf).window (ix2 k f) 1 : Int) = (f.val : Int) := by
  have hs : (rowDims N R C wf).start (ix2 k f) idx 1 = 0 := by
    unfold ScatterDims.start
    rw [dif_neg (by simp)]
  have hw : (rowDims N R C wf).window (ix2 k f) 1 = f.val := by
    unfold ScatterDims.window
    rw [dif_pos (by simp [ScatterDims.sKept, Shape.kept])]
    rfl
  rw [hs, hw]
  simp

/-- Update `(k, f)` lands on `(p, q)` exactly when row `k`'s index word, read signed, is `p`, and `f = q`. -/
theorem row_lands_iff (k : Fin R) (f : Fin C) (p : Fin N) (q : Fin C) :
    (rowDims N R C wf).resultIdx? (ix2 k f) idx = some (ix2 p q)
      ↔ (idx (ix2 k (0 : Fin 1))).toInt = (p.val : Int) ∧ f = q := by
  unfold ScatterDims.resultIdx?
  constructor
  · intro h
    split at h
    · rename_i hall
      have e := Option.some.inj h
      have h0 : ((rowDims N R C wf).start (ix2 k f) idx 0 + ((rowDims N R C wf).window (ix2 k f) 0 : Int)).toNat = p.val :=
        congrArg Fin.val (congrFun e 0)
      have h1 : ((rowDims N R C wf).start (ix2 k f) idx 1 + ((rowDims N R C wf).window (ix2 k f) 1 : Int)).toNat = q.val :=
        congrArg Fin.val (congrFun e 1)
      have h2 := (hall 0).1
      rw [row_coord0] at h0 h2
      rw [row_coord1] at h1
      exact ⟨by omega, Fin.ext (by omega)⟩
    · cases h
  · rintro ⟨hv, rfl⟩
    have hall : ∀ a : Fin 2, 0 ≤ (rowDims N R C wf).start (ix2 k f) idx a + ((rowDims N R C wf).window (ix2 k f) a : Int)
        ∧ (rowDims N R C wf).start (ix2 k f) idx a + ((rowDims N R C wf).window (ix2 k f) a : Int)
          < ((⟨2, ![N, C]⟩ : Shape).size a : Int) := by
      refine Fin.forall_fin_two.mpr ⟨?_, ?_⟩
      · rw [row_coord0, hv]
        have := p.isLt
        refine ⟨by omega, ?_⟩
        show (p.val : Int) < (N : Int)
        omega
      · rw [row_coord1]
        have := f.isLt
        refine ⟨by omega, ?_⟩
        show (f.val : Int) < (C : Int)
        omega
    rw [dif_pos hall]
    congr 1
    funext a
    refine Fin.ext ?_
    match a with
    | ⟨0, _⟩ =>
      show ((rowDims N R C wf).start (ix2 k f) idx 0 + ((rowDims N R C wf).window (ix2 k f) 0 : Int)).toNat = p.val
      rw [row_coord0, hv]; simp
    | ⟨1, _⟩ =>
      show ((rowDims N R C wf).start (ix2 k f) idx 1 + ((rowDims N R C wf).window (ix2 k f) 1 : Int)).toNat = f.val
      rw [row_coord1]; simp

/-- THE ROW SCATTER-ADD READ AT `(p, q)`: the operand there plus the sum, over the update rows landing on `p`,
    of their feature `q`. -/
theorem scatterAdd_rows_apply (x : (⟨2, ![N, C]⟩ : Shape).Idx → EReal) (upd : (⟨2, ![R, C]⟩ : Shape).Idx → EReal)
    (p : Fin N) (q : Fin C) :
    Ideal.hostScatterAdd (rowDims N R C wf) x idx upd (ix2 p q)
      = x (ix2 p q) + ∑ k ∈ Finset.univ.filter (fun k : Fin R => (idx (ix2 k (0 : Fin 1))).toInt = (p.val : Int)),
          upd (ix2 k q) := by
  unfold Ideal.hostScatterAdd
  congr 1
  rw [Finset.sum_filter, sum_idx2, Finset.sum_filter]
  refine Finset.sum_congr rfl fun k _ => ?_
  by_cases hk : (idx (ix2 k (0 : Fin 1))).toInt = (p.val : Int)
  · rw [if_pos hk]
    rw [Finset.sum_eq_single q]
    · rw [if_pos ((row_lands_iff wf idx k q p q).mpr ⟨hk, rfl⟩)]
    · intro b _ hb
      rw [if_neg (fun h => hb ((row_lands_iff wf idx k b p q).mp h).2)]
    · intro h; exact absurd (Finset.mem_univ q) h
  · rw [if_neg hk]
    refine Finset.sum_eq_zero fun b _ => ?_
    rw [if_neg (fun h => hk ((row_lands_iff wf idx k b p q).mp h).1)]

end rows

end Idealize.ShloMosaic.ScatterRows

end
-- ==== Proof.LibGatherRows2.lean ====
/-
  A general lemma: `stablehlo.gather` of whole ROWS of a matrix at a column of start indices, read at an index.

  What `x[idx]` of a matrix `x : [N, C]` at an integer vector `idx : [R]` lowers to: a gather whose result
  `[R, C]` has one offset axis (the features), the operand's row axis collapsed, start index map `[0]`, slice
  sizes `[1, C]` and the index vector on axis 1 of the start indices laid out as `[R, 1]`.  Result element
  `(t, f)` is `x` at row `idx[t, 0]` — read as a signed integer and clamped into `[0, N − 1]` — and feature `f`.
  It is the matrix twin of the flat gather read at an index, and is proved the same way.
-/
import Idealize.ShloMosaic.Lib.ValueIdx

noncomputable section

namespace Idealize.ShloMosaic.GatherRows2

open Idealize.ShloMosaic Idealize.ShloMosaic.ValueIdx

variable {α : Type}

/-- The dimension numbers of `x[idx]` for an operand `[N, C]`, start indices `[R, 1]` and result `[R, C]`. -/
abbrev matDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, f)`: the operand at row `idx[t, 0]`, read signed and clamped into
    `[0, N − 1]`, and feature `f`. -/
theorem gather_mat_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (f : Fin C) :
    Host.gather (matDims N R C wf) x idx (ix2 t f)
      = x (ix2 ⟨min (idx (ix2 t (0 : Fin 1))).toInt.toNat (N - 1), by omega⟩ f) := by
  unfold Host.gather
  congr 1
  funext a
  refine Fin.ext ?_
  match a with
  | ⟨0, _⟩ =>
    show (matDims N R C wf).start (ix2 t f) idx 0 + (matDims N R C wf).batchCoord (ix2 t f) 0
      + (matDims N R C wf).offCoord (ix2 t f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (matDims N R C wf).startIndexMap from List.mem_singleton.mpr rfl)]
    have hsi : (matDims N R C wf).siIdx (ix2 t f) ⟨List.idxOf (0 : Fin 2) (matDims N R C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (matDims N R C wf).start (ix2 t f) idx 1 + (matDims N R C wf).batchCoord (ix2 t f) 1
      + (matDims N R C wf).offCoord (ix2 t f) 1 = f.val
    rw [GatherDims.batchCoord_eq_zero _ _ _ List.not_mem_nil]
    have hs : (matDims N R C wf).start (ix2 t f) idx 1 = 0 := by
      unfold GatherDims.start
      rw [dif_neg (by simp)]
    have ho : (matDims N R C wf).offCoord (ix2 t f) 1 = f.val := by
      unfold GatherDims.offCoord
      rw [dif_pos ((GatherDims.mem_sKept _ _).mpr ⟨by simp, List.not_mem_nil⟩)]
      rfl
    rw [hs, ho]
    simp

end Idealize.ShloMosaic.GatherRows2

end
-- ==== Proof.LibGatherRows.lean ====
/-
  A general lemma: `stablehlo.gather` of a flat array at a column of start indices, read at an index.

  What `x[idx]` of a flat array `x : [N]` at an integer vector `idx : [R]` lowers to: a gather with no offset
  axes, the operand's one axis collapsed, start index map `[0]`, slice size one and the index vector on axis 1 of
  the start indices laid out as `[R, 1]`.  Result element `t` is `x` at the start index `idx[t, 0]`, read as a
  signed integer and clamped into `[0, N − 1]`.  It is the rank-one twin of the library's reading of a gather at
  an `[R, C, 1]` array of start indices, and is proved the same way.
-/
import Idealize.ShloMosaic.Lib.ValueIdx

noncomputable section

namespace Idealize.ShloMosaic.GatherRows

open Idealize.ShloMosaic Idealize.ShloMosaic.ValueIdx

variable {α : Type}

/-- The dimension numbers of `x[idx]` for an operand `[N]`, start indices `[R, 1]` and result `[R]`; their
    conditions `wf` are decided on a program's literal shapes. -/
abbrev rowDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `t`: the operand at the start index `idx[t, 0]`, read signed and clamped into
    `[0, N − 1]`. -/
theorem gather_rows_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (t : Fin R) :
    Host.gather (rowDims N R wf) x idx (ix1 t)
      = x (ix1 ⟨min (idx (ix2 t (0 : Fin 1))).toInt.toNat (N - 1), by omega⟩) := by
  unfold Host.gather
  congr 1
  funext a
  obtain rfl : a = 0 := Subsingleton.elim _ _
  refine Fin.ext ?_
  show (rowDims N R wf).start (ix1 t) idx 0 + (rowDims N R wf).batchCoord (ix1 t) 0
    + (rowDims N R wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims N R wf).startIndexMap from List.mem_singleton.mpr rfl)]
  have hsi : (rowDims N R wf).siIdx (ix1 t) ⟨List.idxOf (0 : Fin 1) (rowDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

end Idealize.ShloMosaic.GatherRows

end
-- ==== Proof.GcnLaw.lean ====
/-
  The algebra behind one graph-convolution layer, on the extended reals.

  A node's new feature is its own scaled feature plus the scaled features of the nodes with an edge into it.  One
  program scales each gathered row by the source's factor, adds up the rows that land on node p together with p's own
  row, and multiplies the total by p's factor; the other appends one self loop per node to the edge list, scales
  each gathered row by the product of the source's and the target's factors, and adds up all rows that land on p.
  The two totals agree because a NONNEGATIVE FINITE factor distributes over a sum of extended reals (an
  infinite summand is allowed: x·(a + b) = x·a + x·b fails only for an infinite or negative x), products commute and
  associate, and the sum over the E + N entries of the extended list is the sum over the first E plus the sum over
  the N loops, of which exactly one lands on p.  The degrees agree the same way: one more than the number of edges
  into p is the number of entries of the extended list that land on p.
-/
import Mathlib.Data.EReal.Operations
import Mathlib.Data.EReal.Inv
import Mathlib.Algebra.BigOperators.Fin

noncomputable section

open scoped BigOperators

namespace Cert.GcnLaw

/-- A nonnegative finite factor distributes over a finite sum of extended reals. -/
theorem mul_sum_of_nonneg_of_ne_top {ι : Type} (s : Finset ι) {x : EReal} (h0 : 0 ≤ x) (ht : x ≠ ⊤) (g : ι → EReal) :
    x * ∑ i ∈ s, g i = ∑ i ∈ s, x * g i := by
  classical
  induction s using Finset.induction_on with
  | empty => simp
  | insert a s ha ih =>
    rw [Finset.sum_insert ha, Finset.sum_insert ha, EReal.left_distrib_of_nonneg_of_ne_top h0 ht, ih]

/-- A sum over `M = E + N` indices is the sum over the first `E` plus the sum over the last `N`. -/
theorem sum_fin_split {M E N : ℕ} (h : M = E + N) {β : Type} [AddCommMonoid β] (g : Fin M → β) :
    ∑ k, g k = (∑ e : Fin E, g ⟨e.val, by omega⟩) + ∑ j : Fin N, g ⟨E + j.val, by omega⟩ := by
  subst h
  rw [Fin.sum_univ_add]
  rfl

/-- A finite sum of ones is a nonnegative real. -/
theorem sum_one_real {ι : Type} (s : Finset ι) : ∃ r : ℝ, 0 ≤ r ∧ ∑ _k ∈ s, (1 : EReal) = (r : EReal) := by
  classical
  induction s using Finset.induction_on with
  | empty => exact ⟨0, le_refl _, by simp⟩
  | insert a s ha ih =>
    obtain ⟨r, hr, e⟩ := ih
    refine ⟨1 + r, by linarith, ?_⟩
    rw [Finset.sum_insert ha, e, EReal.coe_add, EReal.coe_one]

section Split

variable {M E N : ℕ} (hM : M = E + N) (p : Fin N)
  (L : Fin E → Prop) [DecidablePred L] (L' : Fin M → Prop) [DecidablePred L']
  (hL : ∀ (e : Fin E) (he : e.val < M), L' ⟨e.val, he⟩ ↔ L e)
  (hL2 : ∀ (j : Fin N) (hj : E + j.val < M), L' ⟨E + j.val, hj⟩ ↔ j = p)

include hM hL hL2

/-- THE DEGREES AGREE: a constant counted once for the node itself and once per edge into it is the constant counted
    once per entry of the extended list (the edges, then one loop per node) that lands on it. -/
theorem deg_eq (c : EReal) :
    c + (0 + ∑ _e ∈ Finset.univ.filter L, c) = 0 + ∑ _k ∈ Finset.univ.filter L', c := by
  rw [zero_add, zero_add, Finset.sum_filter, Finset.sum_filter, sum_fin_split hM]
  have h1 : (∑ e : Fin E, if L' ⟨e.val, by omega⟩ then c else 0) = ∑ e : Fin E, if L e then c else 0 :=
    Finset.sum_congr rfl fun e _ => if_congr (hL e _) rfl rfl
  have h2 : (∑ j : Fin N, if L' ⟨E + j.val, by omega⟩ then c else 0) = c := by
    rw [Finset.sum_eq_single p]
    · rw [if_pos ((hL2 p _).mpr rfl)]
    · intro j _ hj
      rw [if_neg (fun h => hj ((hL2 j _).mp h))]
    · intro h; exact absurd (Finset.mem_univ p) h
  rw [h1, h2, add_comm]

variable (D X : Fin N → EReal) (h0 : ∀ q, 0 ≤ D q) (ht : ∀ q, D q ≠ ⊤)
  (s : Fin E → Fin N) (s' t' : Fin M → Fin N)
  (hs : ∀ (e : Fin E) (he : e.val < M), s' ⟨e.val, he⟩ = s e)
  (ht' : ∀ k, L' k → t' k = p)
  (hs2 : ∀ (j : Fin N) (hj : E + j.val < M), s' ⟨E + j.val, hj⟩ = j)

include h0 ht hs ht' hs2

/-- THE AGGREGATION LAW: node p's factor times (its own scaled feature plus the scaled features gathered along the
    edges into p) is the sum, over the entries of the extended list that land on p, of the gathered feature times the
    product of the two factors. -/
theorem agg_eq :
    D p * (D p * X p + (0 + ∑ e ∈ Finset.univ.filter L, D (s e) * X (s e)))
      = 0 + ∑ k ∈ Finset.univ.filter L', X (s' k) * (D (s' k) * D (t' k)) := by
  rw [zero_add, zero_add, EReal.left_distrib_of_nonneg_of_ne_top (h0 p) (ht p),
    mul_sum_of_nonneg_of_ne_top _ (h0 p) (ht p), Finset.sum_filter, Finset.sum_filter, sum_fin_split hM]
  have h1 : (∑ e : Fin E, if L' ⟨e.val, by omega⟩
        then X (s' ⟨e.val, by omega⟩) * (D (s' ⟨e.val, by omega⟩) * D (t' ⟨e.val, by omega⟩)) else 0)
      = ∑ e : Fin E, if L e then D p * (D (s e) * X (s e)) else 0 := by
    refine Finset.sum_congr rfl fun e _ => ?_
    by_cases hl : L e
    · rw [if_pos hl, if_pos ((hL e _).mpr hl), hs, ht' _ ((hL e _).mpr hl)]
      ac_rfl
    · rw [if_neg hl, if_neg (fun h => hl ((hL e _).mp h))]
  have h2 : (∑ j : Fin N, if L' ⟨E + j.val, by omega⟩
        then X (s' ⟨E + j.val, by omega⟩) * (D (s' ⟨E + j.val, by omega⟩) * D (t' ⟨E + j.val, by omega⟩)) else 0)
      = D p * (D p * X p) := by
    rw [Finset.sum_eq_single p]
    · rw [if_pos ((hL2 p _).mpr rfl), ht' _ ((hL2 p _).mpr rfl), hs2]
      ac_rfl
    · intro j _ hj
      rw [if_neg (fun h => hj ((hL2 j _).mp h))]
    · intro h; exact absurd (Finset.mem_univ p) h
  rw [h1, h2, add_comm]

end Split

end Cert.GcnLaw

end
-- ==== Proof.GcnOps.lean ====
/-
  One graph-convolution layer as the two programs compute it, as whole-array functions on the extended reals, each
  read at an entry, and the proof that they are the same array.

  Both programs turn a column of 32-bit edge endpoints into row numbers the same way: a negative word counts from the
  end (10000 is added), a gather clamps the signed word into the rows 0 … 9999, and an accumulating scatter drops an
  update whose signed word is not a row.  The first program (R = E edge entries) scales the product rows by the
  factors, gathers them along the edges' sources, adds them at the edges' targets on top of the scaled rows
  themselves, and scales again; the second (R = E + 10000 entries: the edges, then one loop per node) gathers the
  product rows, scales each by the product of the factors gathered at both endpoints, and adds them at the targets.
  With nonnegative finite factors the two arrays agree entry by entry (the aggregation law); the bias row and the
  clamp at zero are the same on both sides.
-/
import Idealize.ShloMosaic.PureOps.Ideal
import Idealize.ShloMosaic.Lib.ValueIdx
import Idealize.ShloMosaic.Lib.Pipeline.Value
import Idealize.ShloMosaic.PureOps.Ideal.Laws
import proofs.«146790_g51402168598780_cont_8to1c4_406_2_alg».proof.Proof.LibScatterRows
import proofs.«146790_g51402168598780_cont_8to1c4_406_2_alg».proof.Proof.LibGatherRows2
import proofs.«146790_g51402168598780_cont_8to1c4_406_2_alg».proof.Proof.LibGatherRows
import proofs.«146790_g51402168598780_cont_8to1c4_406_2_alg».proof.Proof.GcnLaw

noncomputable section

open scoped BigOperators

namespace Cert.GcnOps

open Idealize.ShloMosaic Idealize.ShloMosaic.ValueIdx

/-! ## Shapes -/

abbrev S0 : Shape := ⟨0, ![]⟩
abbrev SN : Shape := ⟨1, ![10000]⟩
abbrev SN1 : Shape := ⟨2, ![10000, 1]⟩
abbrev SNC : Shape := ⟨2, ![10000, 128]⟩
abbrev SC : Shape := ⟨1, ![128]⟩
abbrev S1C : Shape := ⟨2, ![1, 128]⟩
abbrev SR (R : ℕ) : Shape := ⟨1, ![R]⟩
abbrev SR1 (R : ℕ) : Shape := ⟨2, ![R, 1]⟩
abbrev SRC (R : ℕ) : Shape := ⟨2, ![R, 128]⟩

/-! ## Words as row numbers -/

/-- A word read as a Python-style index on an axis of 10000 rows: a negative one counts from the end. -/
def wrapWord (w : BitVec 32) : BitVec 32 :=
  Scalar.select (IntOp.cmpi .slt w 0#32) (IntOp.addi w 10000#32) w

/-- The row a gather reads for a start word: the signed word clamped into 0 … 9999. -/
def clampRow (w : BitVec 32) : Fin 10000 := ⟨min w.toInt.toNat (10000 - 1), by omega⟩

/-- A small natural number as a 32-bit word reads, signed, as itself. -/
theorem toInt_ofNat_small (j : ℕ) (hj : j < 10000) : (BitVec.ofNat 32 j).toInt = (j : Int) := by
  rw [BitVec.toInt_eq_toNat_cond, BitVec.toNat_ofNat]
  have h : j % 2 ^ 32 = j := Nat.mod_eq_of_lt (by omega)
  rw [h]
  split <;> omega

/-- A node's own number is not a negative word, so it is its own row number. -/
theorem wrapWord_ofNat (j : ℕ) (hj : j < 10000) : wrapWord (BitVec.ofNat 32 j) = BitVec.ofNat 32 j := by
  unfold wrapWord Scalar.select IntOp.cmpi
  have h : (BitVec.ofNat 32 j).slt 0#32 = false := by
    rw [BitVec.slt, toInt_ofNat_small j hj]
    simp
  rw [h]
  rfl

/-- The clamp leaves a row number alone. -/
theorem clampRow_of_toInt {w : BitVec 32} {p : Fin 10000} (h : w.toInt = (p.val : Int)) : clampRow w = p := by
  unfold clampRow
  refine Fin.ext ?_
  show min w.toInt.toNat (10000 - 1) = p.val
  have := p.isLt
  omega

section Layers

variable {R : ℕ}
  (b0R : S0.BroadcastsInDim (SR R) ![])
  (bR1 : (SR R).BroadcastsInDim (SR1 R) ![0])
  (bR1C : (SR1 R).BroadcastsInDim (SRC R) ![0, 1])
  (b0N : S0.BroadcastsInDim SN ![])
  (b0NC : S0.BroadcastsInDim SNC ![])
  (bN1 : SN.BroadcastsInDim SN1 ![0])
  (bN1C : SN1.BroadcastsInDim SNC ![0, 1])
  (bC1 : SC.BroadcastsInDim S1C ![1])
  (b1CN : S1C.BroadcastsInDim SNC ![0, 1])
  (wfSf : ScatterDims.WF SN (SR1 R) (SR R) [] [0] [0] 1)
  (wfSr : ScatterDims.WF SNC (SR1 R) (SRC R) [1] [0] [0] 1)
  (wfGm : GatherDims.WF SNC (SR1 R) (SRC R) [1] [0] [] [0] [] 1 ![1, 128])
  (wfGf : GatherDims.WF SN (SR1 R) (SR R) [] [0] [] [0] [] 1 ![1])

/-! ## The column of row numbers -/

/-- A vector of words as a column of start indices, negative words counted from the end. -/
def wrapCol (v : IVec (SR R) 32) : IVec (SR1 R) 32 :=
  broadcastInDim (SR1 R) ![0] bR1
    (select (cmpi .slt v (broadcastInDim (SR R) ![] b0R (constantI S0 32 0#32)))
      (addi v (broadcastInDim (SR R) ![] b0R (constantI S0 32 10000#32))) v)

theorem wrapCol_apply (v : IVec (SR R) 32) (k : Fin R) :
    wrapCol b0R bR1 v (ix2 k (0 : Fin 1)) = wrapWord (v (ix1 k)) := by
  unfold wrapCol
  have hk : ∀ a : Fin 1, ((ix1 k : (SR R).Idx) a).val
      = if (SR R).size a = 1 then 0 else ((ix2 k (0 : Fin 1) : (SR1 R).Idx) ((![0] : Fin 1 → Fin 2) a)).val := fun a =>
    match a with
    | ⟨0, _⟩ => by
      show k.val = if R = 1 then 0 else k.val
      split
      · have := k.isLt; omega
      · rfl
  rw [broadcastInDim_apply _ bR1 _ (ix2 k (0 : Fin 1)) (ix1 k) hk]
  rfl

/-! ## Pointwise operations and filtered sums -/

theorem maximumf_apply {s : Shape} {φ : FTy} (x y : FVec Ideal s φ) (i : s.Idx) : maximumf x y i = max (x i) (y i) := rfl
theorem addf_apply {s : Shape} {φ : FTy} (x y : FVec Ideal s φ) (i : s.Idx) : addf x y i = x i + y i := rfl
theorem mulf_apply {s : Shape} {φ : FTy} (x y : FVec Ideal s φ) (i : s.Idx) : mulf x y i = x i * y i := rfl
theorem scatterAdd_eq {s si u : Shape} {φ : FTy} {w : Nat} (dd : ScatterDims s si u) (x : FVec Ideal s φ) (idx : IVec si w)
    (upd : FVec Ideal u φ) : Host.scatterAdd dd x idx upd = Ideal.hostScatterAdd dd x idx upd := rfl

theorem powf_apply {s : Shape} {φ : FTy} (x y : FVec Ideal s φ) (i : s.Idx) : Host.powf x y i = Ideal.pow (x i) (y i) := rfl
theorem select_apply {s : Shape} {α : Type} (c : IVec s 1) (a b : s.Idx → α) (i : s.Idx) :
    select c a b i = Scalar.select (c i) (a i) (b i) := rfl
theorem cmpf_apply {s : Shape} {φ : FTy} (pr : CmpFPredicate) (x y : FVec Ideal s φ) (i : s.Idx) :
    cmpf pr x y i = Ideal.cmp pr (x i) (y i) := rfl

/-- The bit pattern of 1.0 denotes 1. -/
theorem ofBits_one : Ideal.ofBits .f32 0x3F800000#32 = 1 := by
  simp [Ideal.ofBits, Ideal.ieee, -EReal.coe_mul]; norm_num

/-- The bit pattern of -0.5 denotes -1/2. -/
theorem ofBits_mhalf : Ideal.ofBits .f32 0xBF000000#32 = ((-(1/2) : ℝ) : EReal) := by
  simp [Ideal.ofBits, Ideal.ieee, -EReal.coe_mul]; norm_num

/-- A filtered sum, its condition and its summand each replaced by an equal one. -/
theorem sum_filter_congr' {ι : Type} [Fintype ι] {P Q : ι → Prop} [DecidablePred P] [DecidablePred Q] {g h : ι → EReal}
    (hPQ : ∀ k, P k ↔ Q k) (hgh : ∀ k, g k = h k) :
    ∑ k ∈ Finset.univ.filter P, g k = ∑ k ∈ Finset.univ.filter Q, h k :=
  Finset.sum_congr (Finset.filter_congr fun k _ => hPQ k) fun k _ => hgh k

/-! ## Broadcasts read at an entry -/

/-- A length-10000 vector as a column repeated along 128 features reads, at (p, f), the vector at p. -/
theorem col_apply {α : Type} (v : SN.Idx → α) (p : Fin 10000) (f : Fin 128) :
    broadcastInDim SNC ![0, 1] bN1C (broadcastInDim SN1 ![0] bN1 v) (ix2 p f) = v (ix1 p) := by
  have hk2 : ∀ a : Fin 2, ((ix2 p (0 : Fin 1) : SN1.Idx) a).val
      = if SN1.size a = 1 then 0 else ((ix2 p f : SNC.Idx) ((![0, 1] : Fin 2 → Fin 2) a)).val := fun a =>
    match a with
    | ⟨0, _⟩ => rfl
    | ⟨1, _⟩ => rfl
  have hk1 : ∀ a : Fin 1, ((ix1 p : SN.Idx) a).val
      = if SN.size a = 1 then 0 else ((ix2 p (0 : Fin 1) : SN1.Idx) ((![0] : Fin 1 → Fin 2) a)).val := fun a =>
    match a with
    | ⟨0, _⟩ => rfl
  rw [broadcastInDim_apply _ bN1C _ (ix2 p f) (ix2 p (0 : Fin 1)) hk2,
    broadcastInDim_apply _ bN1 v (ix2 p (0 : Fin 1)) (ix1 p) hk1]

/-- A length-128 vector as a row repeated down 10000 rows reads, at (p, f), the vector at f. -/
theorem row_apply {α : Type} (v : SC.Idx → α) (p : Fin 10000) (f : Fin 128) :
    broadcastInDim SNC ![0, 1] b1CN (broadcastInDim S1C ![1] bC1 v) (ix2 p f) = v (ix1 f) := by
  have hk2 : ∀ a : Fin 2, ((ix2 (0 : Fin 1) f : S1C.Idx) a).val
      = if S1C.size a = 1 then 0 else ((ix2 p f : SNC.Idx) ((![0, 1] : Fin 2 → Fin 2) a)).val := fun a =>
    match a with
    | ⟨0, _⟩ => rfl
    | ⟨1, _⟩ => rfl
  have hk1 : ∀ a : Fin 1, ((ix1 f : SC.Idx) a).val
      = if SC.size a = 1 then 0 else ((ix2 (0 : Fin 1) f : S1C.Idx) ((![1] : Fin 1 → Fin 2) a)).val := fun a =>
    match a with
    | ⟨0, _⟩ => rfl
  rw [broadcastInDim_apply _ b1CN _ (ix2 p f) (ix2 (0 : Fin 1) f) hk2,
    broadcastInDim_apply _ bC1 v (ix2 (0 : Fin 1) f) (ix1 f) hk1]

/-- A length-R vector as a column repeated along 128 features reads, at (k, f), the vector at k. -/
theorem colR_apply {α : Type} (v : (SR R).Idx → α) (k : Fin R) (f : Fin 128) :
    broadcastInDim (SRC R) ![0, 1] bR1C (broadcastInDim (SR1 R) ![0] bR1 v) (ix2 k f) = v (ix1 k) := by
  have hkk : k.val = if R = 1 then 0 else k.val := by
    split
    · have := k.isLt; omega
    · rfl
  have hk2 : ∀ a : Fin 2, ((ix2 k (0 : Fin 1) : (SR1 R).Idx) a).val
      = if (SR1 R).size a = 1 then 0 else ((ix2 k f : (SRC R).Idx) ((![0, 1] : Fin 2 → Fin 2) a)).val := fun a =>
    match a with
    | ⟨0, _⟩ => hkk
    | ⟨1, _⟩ => rfl
  have hk1 : ∀ a : Fin 1, ((ix1 k : (SR R).Idx) a).val
      = if (SR R).size a = 1 then 0 else ((ix2 k (0 : Fin 1) : (SR1 R).Idx) ((![0] : Fin 1 → Fin 2) a)).val := fun a =>
    match a with
    | ⟨0, _⟩ => hkk
  rw [broadcastInDim_apply _ bR1C _ (ix2 k f) (ix2 k (0 : Fin 1)) hk2,
    broadcastInDim_apply _ bR1 v (ix2 k (0 : Fin 1)) (ix1 k) hk1]

/-- A constant repeated over a shape reads, anywhere, as the value its bit pattern denotes. -/
theorem splat_apply {s : Shape} (g : S0.BroadcastsInDim s ![]) (φ : FTy) (bits : BitVec φ.bits) (i : s.Idx) :
    broadcastInDim s ![] g (constant (F := Ideal) S0 φ bits) i = Ideal.ofBits φ bits := rfl

/-! ## The first program's layer (the edges only; the node's own row added apart) -/

/-- One more than the number of edges into each node, as the first program counts it. -/
def degK (D : IVec (SR R) 32) : FVec Ideal SN .f32 :=
  addf (broadcastInDim SN ![] b0N (constant S0 .f32 0x3F800000#32))
    (Host.scatterAdd (ScatterRows.flatDims 10000 R wfSf) (broadcastInDim SN ![] b0N (constant S0 .f32 0x00000000#32))
      (wrapCol b0R bR1 D) (broadcastInDim (SR R) ![] b0R (constant S0 .f32 0x3F800000#32)))

/-- The factors: the degree to the power -1/2. -/
def dinvK (D : IVec (SR R) 32) : FVec Ideal SN .f32 :=
  Host.powf (degK b0R bR1 b0N wfSf D) (broadcastInDim SN ![] b0N (constant S0 .f32 0xBF000000#32))

/-- The first program's layer: scale, gather along the sources, add at the targets on top of the scaled rows, scale,
    add the bias row, clamp at zero. -/
def kLayer (S D : IVec (SR R) 32) (d : FVec Ideal SN .f32) (xw : FVec Ideal SNC .f32) (b : FVec Ideal SC .f32) :
    FVec Ideal SNC .f32 :=
  maximumf
    (addf
      (mulf (broadcastInDim SNC ![0, 1] bN1C (broadcastInDim SN1 ![0] bN1 d))
        (addf (mulf (broadcastInDim SNC ![0, 1] bN1C (broadcastInDim SN1 ![0] bN1 d)) xw)
          (Host.scatterAdd (ScatterRows.rowDims 10000 R 128 wfSr)
            (broadcastInDim SNC ![] b0NC (constant S0 .f32 0x00000000#32)) (wrapCol b0R bR1 D)
            (Host.gather (GatherRows2.matDims 10000 R 128 wfGm)
              (mulf (broadcastInDim SNC ![0, 1] bN1C (broadcastInDim SN1 ![0] bN1 d)) xw) (wrapCol b0R bR1 S)))))
      (broadcastInDim SNC ![0, 1] b1CN (broadcastInDim S1C ![1] bC1 b)))
    (broadcastInDim SNC ![] b0NC (constant S0 .f32 0x00000000#32))

theorem kLayer_apply (S D : IVec (SR R) 32) (d : FVec Ideal SN .f32) (xw : FVec Ideal SNC .f32)
    (b : FVec Ideal SC .f32) (p : Fin 10000) (f : Fin 128) :
    kLayer b0R bR1 b0NC bN1 bN1C bC1 b1CN wfSr wfGm S D d xw b (ix2 p f)
      = max (d (ix1 p) * (d (ix1 p) * xw (ix2 p f)
            + (Ideal.ofBits .f32 0x00000000#32
              + ∑ k ∈ Finset.univ.filter (fun k : Fin R => (wrapWord (D (ix1 k))).toInt = (p.val : Int)),
                  d (ix1 (clampRow (wrapWord (S (ix1 k))))) * xw (ix2 (clampRow (wrapWord (S (ix1 k)))) f)))
          + b (ix1 f)) (Ideal.ofBits .f32 0x00000000#32) := by
  unfold kLayer
  rw [maximumf_apply, addf_apply, mulf_apply, addf_apply, mulf_apply, scatterAdd_eq,
    ScatterRows.scatterAdd_rows_apply, col_apply, row_apply, splat_apply]
  rw [sum_filter_congr' (Q := fun k : Fin R => (wrapWord (D (ix1 k))).toInt = (p.val : Int))
    (h := fun k : Fin R => d (ix1 (clampRow (wrapWord (S (ix1 k))))) * xw (ix2 (clampRow (wrapWord (S (ix1 k)))) f))
    (fun k => by rw [wrapCol_apply])
    (fun k => by
      rw [GatherRows2.gather_mat_apply (by decide), mulf_apply, col_apply]
      simp only [wrapCol_apply]
      rfl)]

/-! ## The second program's layer (the edges, then one loop per node) -/

/-- The number of entries of the extended list that land on each node. -/
def degR (D : IVec (SR R) 32) : FVec Ideal SN .f32 :=
  Host.scatterAdd (ScatterRows.flatDims 10000 R wfSf) (broadcastInDim SN ![] b0N (constant S0 .f32 0x00000000#32))
    (wrapCol b0R bR1 D) (broadcastInDim (SR R) ![] b0R (constant S0 .f32 0x3F800000#32))

/-- The factors: the degree to the power -1/2 where the degree is positive, zero elsewhere. -/
def disR (D : IVec (SR R) 32) : FVec Ideal SN .f32 :=
  select (cmpf .ogt (degR b0R bR1 b0N wfSf D) (broadcastInDim SN ![] b0N (constant S0 .f32 0x00000000#32)))
    (Host.powf (degR b0R bR1 b0N wfSf D) (broadcastInDim SN ![] b0N (constant S0 .f32 0xBF000000#32)))
    (broadcastInDim SN ![] b0N (constant S0 .f32 0x00000000#32))

/-- The second program's layer: gather the product rows along the sources, scale each by the product of the factors
    at its two endpoints, add at the targets, add the bias row, clamp at zero. -/
def rLayer (S D : IVec (SR R) 32) (d : FVec Ideal SN .f32) (xw : FVec Ideal SNC .f32) (b : FVec Ideal SC .f32) :
    FVec Ideal SNC .f32 :=
  maximumf
    (addf
      (Host.scatterAdd (ScatterRows.rowDims 10000 R 128 wfSr)
        (broadcastInDim SNC ![] b0NC (constant S0 .f32 0x00000000#32)) (wrapCol b0R bR1 D)
        (mulf (Host.gather (GatherRows2.matDims 10000 R 128 wfGm) xw (wrapCol b0R bR1 S))
          (broadcastInDim (SRC R) ![0, 1] bR1C (broadcastInDim (SR1 R) ![0] bR1
            (mulf (Host.gather (GatherRows.rowDims 10000 R wfGf) d (wrapCol b0R bR1 S))
              (Host.gather (GatherRows.rowDims 10000 R wfGf) d (wrapCol b0R bR1 D)))))))
      (broadcastInDim SNC ![0, 1] b1CN (broadcastInDim S1C ![1] bC1 b)))
    (broadcastInDim SNC ![] b0NC (constant S0 .f32 0x00000000#32))

theorem rLayer_apply (S D : IVec (SR R) 32) (d : FVec Ideal SN .f32) (xw : FVec Ideal SNC .f32)
    (b : FVec Ideal SC .f32) (p : Fin 10000) (f : Fin 128) :
    rLayer b0R bR1 bR1C b0NC bC1 b1CN wfSr wfGm wfGf S D d xw b (ix2 p f)
      = max ((Ideal.ofBits .f32 0x00000000#32
            + ∑ k ∈ Finset.univ.filter (fun k : Fin R => (wrapWord (D (ix1 k))).toInt = (p.val : Int)),
                xw (ix2 (clampRow (wrapWord (S (ix1 k)))) f)
                  * (d (ix1 (clampRow (wrapWord (S (ix1 k))))) * d (ix1 (clampRow (wrapWord (D (ix1 k)))))))
          + b (ix1 f)) (Ideal.ofBits .f32 0x00000000#32) := by
  unfold rLayer
  rw [maximumf_apply, addf_apply, scatterAdd_eq, ScatterRows.scatterAdd_rows_apply, row_apply, splat_apply]
  rw [sum_filter_congr' (Q := fun k : Fin R => (wrapWord (D (ix1 k))).toInt = (p.val : Int))
    (h := fun k : Fin R => xw (ix2 (clampRow (wrapWord (S (ix1 k)))) f)
      * (d (ix1 (clampRow (wrapWord (S (ix1 k))))) * d (ix1 (clampRow (wrapWord (D (ix1 k)))))))
    (fun k => by rw [wrapCol_apply])
    (fun k => by
      rw [mulf_apply, colR_apply, mulf_apply, GatherRows2.gather_mat_apply (by decide),
        GatherRows.gather_rows_apply (by decide), GatherRows.gather_rows_apply (by decide)]
      simp only [wrapCol_apply]
      rfl)]

end Layers

/-! ## The two layers are one array -/

section Law

variable {E M : ℕ} (hM : M = E + 10000)
  (b0E : S0.BroadcastsInDim (SR E) ![]) (bE1 : (SR E).BroadcastsInDim (SR1 E) ![0])
  (b0M : S0.BroadcastsInDim (SR M) ![]) (bM1 : (SR M).BroadcastsInDim (SR1 M) ![0])
  (bM1C : (SR1 M).BroadcastsInDim (SRC M) ![0, 1])
  (b0N : S0.BroadcastsInDim SN ![])
  (b0NC : S0.BroadcastsInDim SNC ![])
  (bN1 : SN.BroadcastsInDim SN1 ![0])
  (bN1C : SN1.BroadcastsInDim SNC ![0, 1])
  (bC1 : SC.BroadcastsInDim S1C ![1])
  (b1CN : S1C.BroadcastsInDim SNC ![0, 1])
  (wfSfE : ScatterDims.WF SN (SR1 E) (SR E) [] [0] [0] 1)
  (wfSrE : ScatterDims.WF SNC (SR1 E) (SRC E) [1] [0] [0] 1)
  (wfGmE : GatherDims.WF SNC (SR1 E) (SRC E) [1] [0] [] [0] [] 1 ![1, 128])
  (wfSfM : ScatterDims.WF SN (SR1 M) (SR M) [] [0] [0] 1)
  (wfSrM : ScatterDims.WF SNC (SR1 M) (SRC M) [1] [0] [0] 1)
  (wfGmM : GatherDims.WF SNC (SR1 M) (SRC M) [1] [0] [] [0] [] 1 ![1, 128])
  (wfGfM : GatherDims.WF SN (SR1 M) (SR M) [] [0] [] [0] [] 1 ![1])
  (S D : IVec (SR E) 32) (S' D' : IVec (SR M) 32)
  (hS : ∀ (e : Fin E) (he : e.val < M), S' (ix1 ⟨e.val, he⟩) = S (ix1 e))
  (hD : ∀ (e : Fin E) (he : e.val < M), D' (ix1 ⟨e.val, he⟩) = D (ix1 e))
  (hS2 : ∀ (j : Fin 10000) (hj : E + j.val < M), S' (ix1 ⟨E + j.val, hj⟩) = BitVec.ofNat 32 j.val)
  (hD2 : ∀ (j : Fin 10000) (hj : E + j.val < M), D' (ix1 ⟨E + j.val, hj⟩) = BitVec.ofNat 32 j.val)

include hD in
/-- An entry of the extended list that is an edge lands where the edge lands. -/
theorem lands_edge (p : Fin 10000) (e : Fin E) (he : e.val < M) :
    (wrapWord (D' (ix1 ⟨e.val, he⟩))).toInt = (p.val : Int) ↔ (wrapWord (D (ix1 e))).toInt = (p.val : Int) := by
  rw [hD e he]

include hD2 in
/-- Node j's loop lands on j. -/
theorem lands_loop (p j : Fin 10000) (hj : E + j.val < M) :
    (wrapWord (D' (ix1 ⟨E + j.val, hj⟩))).toInt = (p.val : Int) ↔ j = p := by
  rw [hD2 j hj, wrapWord_ofNat _ j.isLt, toInt_ofNat_small _ j.isLt]
  constructor
  · intro h; exact Fin.ext (by exact_mod_cast h)
  · intro h; rw [h]

include hM hD hD2 in
/-- THE DEGREES AGREE, as whole arrays. -/
theorem deg_eq : degK b0E bE1 b0N wfSfE D = degR b0M bM1 b0N wfSfM D' := by
  funext i
  obtain ⟨p, rfl⟩ : ∃ p : Fin 10000, i = ix1 p := ⟨i 0, eq_ix1 i⟩
  unfold degK degR
  rw [addf_apply, scatterAdd_eq, scatterAdd_eq, ScatterRows.scatterAdd_flat_apply, ScatterRows.scatterAdd_flat_apply,
    splat_apply, splat_apply]
  rw [sum_filter_congr' (Q := fun k : Fin E => (wrapWord (D (ix1 k))).toInt = (p.val : Int))
      (h := fun _ : Fin E => Ideal.ofBits .f32 0x3F800000#32) (fun k => by rw [wrapCol_apply]) (fun k => splat_apply _ _ _ _),
    sum_filter_congr' (Q := fun k : Fin M => (wrapWord (D' (ix1 k))).toInt = (p.val : Int))
      (h := fun _ : Fin M => Ideal.ofBits .f32 0x3F800000#32) (fun k => by rw [wrapCol_apply]) (fun k => splat_apply _ _ _ _),
    Ideal.ofBits_zero_f32]
  exact GcnLaw.deg_eq hM p _ _ (fun e he => lands_edge D D' hD p e he) (fun j hj => lands_loop D' hD2 p j hj) _

/-- The first program's degree at a node is a real number, at least one. -/
theorem degK_real (q : SN.Idx) : ∃ r : ℝ, 1 ≤ r ∧ degK b0E bE1 b0N wfSfE D q = (r : EReal) := by
  obtain ⟨p, rfl⟩ : ∃ p : Fin 10000, q = ix1 p := ⟨q 0, eq_ix1 q⟩
  unfold degK
  rw [addf_apply, scatterAdd_eq, ScatterRows.scatterAdd_flat_apply, splat_apply, splat_apply,
    sum_filter_congr' (Q := fun k : Fin E => (wrapWord (D (ix1 k))).toInt = (p.val : Int))
      (h := fun _ : Fin E => (1 : EReal)) (fun k => by rw [wrapCol_apply]) (fun k => (splat_apply _ _ _ _).trans ofBits_one),
    ofBits_one, Ideal.ofBits_zero_f32, zero_add]
  obtain ⟨r, hr, e⟩ := GcnLaw.sum_one_real (Finset.univ.filter fun k : Fin E => (wrapWord (D (ix1 k))).toInt = (p.val : Int))
  rw [e]
  exact ⟨1 + r, by linarith, by rw [EReal.coe_add, EReal.coe_one]⟩

/-- The factors are nonnegative and finite. -/
theorem dinvK_nonneg_finite (q : SN.Idx) :
    0 ≤ dinvK b0E bE1 b0N wfSfE D q ∧ dinvK b0E bE1 b0N wfSfE D q ≠ ⊤ := by
  obtain ⟨r, hr, e⟩ := degK_real b0E bE1 b0N wfSfE D q
  have h : dinvK b0E bE1 b0N wfSfE D q = ((r.rpow (-(1/2)) : ℝ) : EReal) := by
    unfold dinvK
    rw [powf_apply, e, splat_apply, ofBits_mhalf, Ideal.pow_coe_coe]
  rw [h]
  exact ⟨EReal.coe_nonneg.mpr (Real.rpow_nonneg (by linarith) _), EReal.coe_ne_top _⟩

include hM hD hD2 in
/-- THE FACTORS AGREE: every degree is positive, so the second program's guard never takes its zero branch. -/
theorem disR_eq : disR b0M bM1 b0N wfSfM D' = dinvK b0E bE1 b0N wfSfE D := by
  funext q
  unfold disR dinvK
  rw [← deg_eq hM b0E bE1 b0M bM1 b0N wfSfE wfSfM D D' hD hD2]
  obtain ⟨r, hr, e⟩ := degK_real b0E bE1 b0N wfSfE D q
  rw [select_apply, cmpf_apply, splat_apply, Ideal.ofBits_zero_f32, e]
  have hc : Ideal.cmp .ogt ((r : ℝ) : EReal) 0 = 1#1 := by
    have hpos : (0 : EReal) < (r : EReal) := EReal.coe_pos.mpr (by linarith)
    unfold Ideal.cmp
    simp [hpos]
  rw [hc]
  rfl

include hM hS hD hS2 hD2 in
/-- THE LAYERS AGREE, as whole arrays, for nonnegative finite factors. -/
theorem layer_eq (d : FVec Ideal SN .f32) (h0 : ∀ q, 0 ≤ d q) (ht : ∀ q, d q ≠ ⊤) (xw : FVec Ideal SNC .f32)
    (b : FVec Ideal SC .f32) :
    kLayer b0E bE1 b0NC bN1 bN1C bC1 b1CN wfSrE wfGmE S D d xw b
      = rLayer b0M bM1 bM1C b0NC bC1 b1CN wfSrM wfGmM wfGfM S' D' d xw b := by
  funext i
  obtain ⟨p, f, rfl⟩ : ∃ (p : Fin 10000) (f : Fin 128), i = ix2 p f := ⟨i 0, i 1, eq_ix2 i⟩
  rw [kLayer_apply, rLayer_apply, Ideal.ofBits_zero_f32]
  refine congrArg (fun t => max (t + b (ix1 f)) 0) ?_
  exact GcnLaw.agg_eq (hM := hM) (p := p)
    (L := fun e : Fin E => (wrapWord (D (ix1 e))).toInt = (p.val : Int))
    (L' := fun k : Fin M => (wrapWord (D' (ix1 k))).toInt = (p.val : Int))
    (hL := fun e he => lands_edge D D' hD p e he) (hL2 := fun j hj => lands_loop D' hD2 p j hj)
    (D := fun q => d (ix1 q)) (X := fun q => xw (ix2 q f)) (h0 := fun q => h0 _) (ht := fun q => ht _)
    (s := fun e => clampRow (wrapWord (S (ix1 e)))) (s' := fun k => clampRow (wrapWord (S' (ix1 k))))
    (t' := fun k => clampRow (wrapWord (D' (ix1 k))))
    (hs := fun e he => by show clampRow (wrapWord (S' (ix1 ⟨e.val, he⟩))) = clampRow (wrapWord (S (ix1 e))); rw [hS e he])
    (ht' := fun k hk => clampRow_of_toInt hk)
    (hs2 := fun j hj => by
      show clampRow (wrapWord (S' (ix1 ⟨E + j.val, hj⟩))) = j
      rw [hS2 j hj, wrapWord_ofNat _ j.isLt]
      exact clampRow_of_toInt (toInt_ofNat_small _ j.isLt))

end Law

end Cert.GcnOps

end
-- ==== Proof.KFold.lean ====
/-
  The first program's buffers, stretch by stretch.

  Each stretch of host operations leaves the buffers it does not write as they were and its results at the
  operations' composed value of the buffers it reads; a matrix-product region leaves its output array at the product of
  its two operands and every other buffer as it was.  Reading the program through in order: the two rows of edge
  endpoints and the factors (the degree to the power -1/2) are computed once, and each of the three layers is one
  matrix product followed by the layer's scatter-and-scale of it; a last product plus the output bias gives the scores.
-/
import proofs.«146790_g51402168598780_cont_8to1c4_406_2_alg».proof.Proof.Gen.KernelIdeal.Frame
import proofs.«146790_g51402168598780_cont_8to1c4_406_2_alg».proof.Proof.KRegions
import proofs.«146790_g51402168598780_cont_8to1c4_406_2_alg».proof.Proof.GcnOps
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo

section Keeps
variable {F : FTy → Type} [FloatOps F]

/-- The buffers that stretch `hostOps0` writes. -/
abbrev hostOps0_W : List (Ref sig .tc) := [main_v0, main_v1, main_v2, main_v3, main_cst, main_v4, main_c, main_v5, main_v6, main_c_0, main_v7, main_v8, main_v9, main_v10, main_cst_1, main_v11, main_v12, main_cst_2, main_v13, main_v14, main_cst_3, main_v15, main_v16]
theorem hostOps0_writes : (hostOps0 : List (HloOp τ sig (Elt F))).Forall fun op =>
    op.writes ⊆ (hostOps0_W.map (Proc.devRef (τ := τ) .tc)).toFinset := by
  simp only [hostOps0, List.Forall]
  repeat' apply And.intro
  all_goals (simp only [nullary_writes, unary_writes, binary_writes, ternary_writes, quaternary_writes, reshape_writes, Finset.singleton_subset_iff, List.mem_toFinset]; exact List.mem_map_of_mem (by decide))
/-- A buffer the stretch does not write keeps its contents through it. -/
theorem keep_hostOps0 (V : Valuation τ sig (Elt F)) (r : Ref sig .tc) (h : r ∉ hostOps0_W) :
    after hostOps0 V (Proc.devRef .tc r) = V (Proc.devRef .tc r) :=
  after_of_writes_sub hostOps0 V hostOps0_writes h

/-- The buffers that stretch `hostOps1` writes. -/
abbrev hostOps1_W : List (Ref sig .tc) := [main_v18, main_v19, main_v20, main_cst_4, main_v21, main_c_5, main_v22, main_v23, main_c_6, main_v24, main_v25, main_v26, main_v27, main_v28, main_c_7, main_v29, main_v30, main_c_8, main_v31, main_v32, main_v33, main_v34, main_v35, main_v36, main_v37, main_v38, main_v39, main_v40, main_v41, main_v42]
theorem hostOps1_writes : (hostOps1 : List (HloOp τ sig (Elt F))).Forall fun op =>
    op.writes ⊆ (hostOps1_W.map (Proc.devRef (τ := τ) .tc)).toFinset := by
  simp only [hostOps1, List.Forall]
  repeat' apply And.intro
  all_goals (simp only [nullary_writes, unary_writes, binary_writes, ternary_writes, quaternary_writes, reshape_writes, Finset.singleton_subset_iff, List.mem_toFinset]; exact List.mem_map_of_mem (by decide))
/-- A buffer the stretch does not write keeps its contents through it. -/
theorem keep_hostOps1 (V : Valuation τ sig (Elt F)) (r : Ref sig .tc) (h : r ∉ hostOps1_W) :
    after hostOps1 V (Proc.devRef .tc r) = V (Proc.devRef .tc r) :=
  after_of_writes_sub hostOps1 V hostOps1_writes h

/-- The buffers that stretch `hostOps1_1` writes. -/
abbrev hostOps1_1_W : List (Ref sig .tc) := [main_call0_cst, main_call0_v0, main_v43]
theorem hostOps1_1_writes : (hostOps1_1 : List (HloOp τ sig (Elt F))).Forall fun op =>
    op.writes ⊆ (hostOps1_1_W.map (Proc.devRef (τ := τ) .tc)).toFinset := by
  simp only [hostOps1_1, List.Forall]
  repeat' apply And.intro
  all_goals (simp only [nullary_writes, unary_writes, binary_writes, ternary_writes, quaternary_writes, reshape_writes, Finset.singleton_subset_iff, List.mem_toFinset]; exact List.mem_map_of_mem (by decide))
/-- A buffer the stretch does not write keeps its contents through it. -/
theorem keep_hostOps1_1 (V : Valuation τ sig (Elt F)) (r : Ref sig .tc) (h : r ∉ hostOps1_1_W) :
    after hostOps1_1 V (Proc.devRef .tc r) = V (Proc.devRef .tc r) :=
  after_of_writes_sub hostOps1_1 V hostOps1_1_writes h

/-- The buffers that stretch `hostOps2` writes. -/
abbrev hostOps2_W : List (Ref sig .tc) := [main_v45, main_v46, main_v47, main_cst_9, main_v48, main_c_10, main_v49, main_v50, main_c_11, main_v51, main_v52, main_v53, main_v54, main_v55, main_c_12, main_v56, main_v57, main_c_13, main_v58, main_v59, main_v60, main_v61, main_v62, main_v63, main_v64, main_v65, main_v66, main_v67, main_v68, main_v69]
theorem hostOps2_writes : (hostOps2 : List (HloOp τ sig (Elt F))).Forall fun op =>
    op.writes ⊆ (hostOps2_W.map (Proc.devRef (τ := τ) .tc)).toFinset := by
  simp only [hostOps2, List.Forall]
  repeat' apply And.intro
  all_goals (simp only [nullary_writes, unary_writes, binary_writes, ternary_writes, quaternary_writes, reshape_writes, Finset.singleton_subset_iff, List.mem_toFinset]; exact List.mem_map_of_mem (by decide))
/-- A buffer the stretch does not write keeps its contents through it. -/
theorem keep_hostOps2 (V : Valuation τ sig (Elt F)) (r : Ref sig .tc) (h : r ∉ hostOps2_W) :
    after hostOps2 V (Proc.devRef .tc r) = V (Proc.devRef .tc r) :=
  after_of_writes_sub hostOps2 V hostOps2_writes h

/-- The buffers that stretch `hostOps2_1` writes. -/
abbrev hostOps2_1_W : List (Ref sig .tc) := [main_call1_cst, main_call1_v0, main_v70]
theorem hostOps2_1_writes : (hostOps2_1 : List (HloOp τ sig (Elt F))).Forall fun op =>
    op.writes ⊆ (hostOps2_1_W.map (Proc.devRef (τ := τ) .tc)).toFinset := by
  simp only [hostOps2_1, List.Forall]
  repeat' apply And.intro
  all_goals (simp only [nullary_writes, unary_writes, binary_writes, ternary_writes, quaternary_writes, reshape_writes, Finset.singleton_subset_iff, List.mem_toFinset]; exact List.mem_map_of_mem (by decide))
/-- A buffer the stretch does not write keeps its contents through it. -/
theorem keep_hostOps2_1 (V : Valuation τ sig (Elt F)) (r : Ref sig .tc) (h : r ∉ hostOps2_1_W) :
    after hostOps2_1 V (Proc.devRef .tc r) = V (Proc.devRef .tc r) :=
  after_of_writes_sub hostOps2_1 V hostOps2_1_writes h

/-- The buffers that stretch `hostOps3` writes. -/
abbrev hostOps3_W : List (Ref sig .tc) := [main_v72, main_v73, main_v74, main_cst_14, main_v75, main_c_15, main_v76, main_v77, main_c_16, main_v78, main_v79, main_v80, main_v81, main_v82, main_c_17, main_v83, main_v84, main_c_18, main_v85, main_v86, main_v87, main_v88, main_v89, main_v90, main_v91, main_v92, main_v93, main_v94, main_v95, main_v96]
theorem hostOps3_writes : (hostOps3 : List (HloOp τ sig (Elt F))).Forall fun op =>
    op.writes ⊆ (hostOps3_W.map (Proc.devRef (τ := τ) .tc)).toFinset := by
  simp only [hostOps3, List.Forall]
  repeat' apply And.intro
  all_goals (simp only [nullary_writes, unary_writes, binary_writes, ternary_writes, quaternary_writes, reshape_writes, Finset.singleton_subset_iff, List.mem_toFinset]; exact List.mem_map_of_mem (by decide))
/-- A buffer the stretch does not write keeps its contents through it. -/
theorem keep_hostOps3 (V : Valuation τ sig (Elt F)) (r : Ref sig .tc) (h : r ∉ hostOps3_W) :
    after hostOps3 V (Proc.devRef .tc r) = V (Proc.devRef .tc r) :=
  after_of_writes_sub hostOps3 V hostOps3_writes h

/-- The buffers that stretch `hostOps3_1` writes. -/
abbrev hostOps3_1_W : List (Ref sig .tc) := [main_call2_cst, main_call2_v0, main_v97]
theorem hostOps3_1_writes : (hostOps3_1 : List (HloOp τ sig (Elt F))).Forall fun op =>
    op.writes ⊆ (hostOps3_1_W.map (Proc.devRef (τ := τ) .tc)).toFinset := by
  simp only [hostOps3_1, List.Forall]
  repeat' apply And.intro
  all_goals (simp only [nullary_writes, unary_writes, binary_writes, ternary_writes, quaternary_writes, reshape_writes, Finset.singleton_subset_iff, List.mem_toFinset]; exact List.mem_map_of_mem (by decide))
/-- A buffer the stretch does not write keeps its contents through it. -/
theorem keep_hostOps3_1 (V : Valuation τ sig (Elt F)) (r : Ref sig .tc) (h : r ∉ hostOps3_1_W) :
    after hostOps3_1 V (Proc.devRef .tc r) = V (Proc.devRef .tc r) :=
  after_of_writes_sub hostOps3_1 V hostOps3_1_writes h

/-- The buffers that stretch `hostOps4` writes. -/
abbrev hostOps4_W : List (Ref sig .tc) := [main_v99, main_v100, main_v101]
theorem hostOps4_writes : (hostOps4 : List (HloOp τ sig (Elt F))).Forall fun op =>
    op.writes ⊆ (hostOps4_W.map (Proc.devRef (τ := τ) .tc)).toFinset := by
  simp only [hostOps4, List.Forall]
  repeat' apply And.intro
  all_goals (simp only [nullary_writes, unary_writes, binary_writes, ternary_writes, quaternary_writes, reshape_writes, Finset.singleton_subset_iff, List.mem_toFinset]; exact List.mem_map_of_mem (by decide))
/-- A buffer the stretch does not write keeps its contents through it. -/
theorem keep_hostOps4 (V : Valuation τ sig (Elt F)) (r : Ref sig .tc) (h : r ∉ hostOps4_W) :
    after hostOps4 V (Proc.devRef .tc r) = V (Proc.devRef .tc r) :=
  after_of_writes_sub hostOps4 V hostOps4_writes h

end Keeps

/-! ## The values -/

/-- Row 0 / row 1 of the [2, E] edge list as a length-E vector. -/
def rowOf0 (x1 : (⟨S2x320000, .i32⟩ : BufTy).Contents (Elt Ideal)) : IVec S320000 32 :=
  shapeCast _ (extractStridedSlice S1x320000 ![0, 0] x1 Gen.slices_S2x320000_S1x320000_0_0) Gen.shapeCasts_S1x320000_S320000
def rowOf1 (x1 : (⟨S2x320000, .i32⟩ : BufTy).Contents (Elt Ideal)) : IVec S320000 32 :=
  shapeCast _ (extractStridedSlice S1x320000 ![1, 0] x1 Gen.slices_S2x320000_S1x320000_1_0) Gen.shapeCasts_S1x320000_S320000

/-- The sources' row of the edge list, read out of the stretch before the first product. -/
theorem read_src (V : Valuation τ sig (Elt Ideal)) (x1 : (⟨S2x320000, .i32⟩ : BufTy).Contents (Elt Ideal))
    (h1 : V (Proc.devRef .tc main_arg1) = x1) :
    after hostOps0 V (Proc.devRef .tc main_v1) = rowOf0 x1 := by
  subst h1
  after_results_simp <;> rfl

/-- The targets' row of the edge list. -/
theorem read_dst (V : Valuation τ sig (Elt Ideal)) (x1 : (⟨S2x320000, .i32⟩ : BufTy).Contents (Elt Ideal))
    (h1 : V (Proc.devRef .tc main_arg1) = x1) :
    after hostOps0 V (Proc.devRef .tc main_v3) = rowOf1 x1 := by
  subst h1
  after_results_simp <;> rfl

/-- The factors: one more than the number of edges into each node, to the power -1/2. -/
theorem read_dinv (V : Valuation τ sig (Elt Ideal)) (x1 : (⟨S2x320000, .i32⟩ : BufTy).Contents (Elt Ideal))
    (h1 : V (Proc.devRef .tc main_arg1) = x1) :
    after hostOps0 V (Proc.devRef .tc main_v16) = GcnOps.dinvK Gen.bcast_S_S320000 Gen.bcast_S320000_S320000x1_0 Gen.bcast_S_S10000 Gen.scatter_S10000_S320000x1_S320000_n_0_0_1_wf (rowOf1 x1) := by
  subst h1
  after_results_simp <;> rfl

/-- Layer 1's stretch and its clamp at zero: from the factors, the product, the two rows of endpoints and the bias,
    the layer's array. -/
theorem read_layer1 (V : Valuation τ sig (Elt Ideal)) (d : FVec Ideal S10000 .f32) (xw : FVec Ideal S10000x128 .f32)
    (S D : IVec S320000 32) (b : FVec Ideal S128 .f32)
    (hd : V (Proc.devRef .tc main_v16) = d) (hxw : V (Proc.devRef .tc main_v17) = xw) (hS : V (Proc.devRef .tc main_v1) = S)
    (hD : V (Proc.devRef .tc main_v3) = D) (hb : V (Proc.devRef .tc main_arg3) = b) :
    after hostOps1_1 (after hostOps1 V) (Proc.devRef .tc main_v43) = GcnOps.kLayer Gen.bcast_S_S320000 Gen.bcast_S320000_S320000x1_0 Gen.bcast_S_S10000x128 Gen.bcast_S10000_S10000x1_0 Gen.bcast_S10000x1_S10000x128_0_1 Gen.bcast_S128_S1x128_1 Gen.bcast_S1x128_S10000x128_0_1 Gen.scatter_S10000x128_S320000x1_S320000x128_1_0_0_1_wf Gen.gather_S10000x128_S320000x1_S320000x128_1_0_n_n_0_1_1128_wf S D d xw b := by
  subst hd hxw hS hD hb
  after_results_simp <;> rfl

/-- Layer 2's stretch and its clamp at zero: from the factors, the product, the two rows of endpoints and the bias,
    the layer's array. -/
theorem read_layer2 (V : Valuation τ sig (Elt Ideal)) (d : FVec Ideal S10000 .f32) (xw : FVec Ideal S10000x128 .f32)
    (S D : IVec S320000 32) (b : FVec Ideal S128 .f32)
    (hd : V (Proc.devRef .tc main_v16) = d) (hxw : V (Proc.devRef .tc main_v44) = xw) (hS : V (Proc.devRef .tc main_v1) = S)
    (hD : V (Proc.devRef .tc main_v3) = D) (hb : V (Proc.devRef .tc main_arg5) = b) :
    after hostOps2_1 (after hostOps2 V) (Proc.devRef .tc main_v70) = GcnOps.kLayer Gen.bcast_S_S320000 Gen.bcast_S320000_S320000x1_0 Gen.bcast_S_S10000x128 Gen.bcast_S10000_S10000x1_0 Gen.bcast_S10000x1_S10000x128_0_1 Gen.bcast_S128_S1x128_1 Gen.bcast_S1x128_S10000x128_0_1 Gen.scatter_S10000x128_S320000x1_S320000x128_1_0_0_1_wf Gen.gather_S10000x128_S320000x1_S320000x128_1_0_n_n_0_1_1128_wf S D d xw b := by
  subst hd hxw hS hD hb
  after_results_simp <;> rfl

/-- Layer 3's stretch and its clamp at zero: from the factors, the product, the two rows of endpoints and the bias,
    the layer's array. -/
theorem read_layer3 (V : Valuation τ sig (Elt Ideal)) (d : FVec Ideal S10000 .f32) (xw : FVec Ideal S10000x128 .f32)
    (S D : IVec S320000 32) (b : FVec Ideal S128 .f32)
    (hd : V (Proc.devRef .tc main_v16) = d) (hxw : V (Proc.devRef .tc main_v71) = xw) (hS : V (Proc.devRef .tc main_v1) = S)
    (hD : V (Proc.devRef .tc main_v3) = D) (hb : V (Proc.devRef .tc main_arg7) = b) :
    after hostOps3_1 (after hostOps3 V) (Proc.devRef .tc main_v97) = GcnOps.kLayer Gen.bcast_S_S320000 Gen.bcast_S320000_S320000x1_0 Gen.bcast_S_S10000x128 Gen.bcast_S10000_S10000x1_0 Gen.bcast_S10000x1_S10000x128_0_1 Gen.bcast_S128_S1x128_1 Gen.bcast_S1x128_S10000x128_0_1 Gen.scatter_S10000x128_S320000x1_S320000x128_1_0_0_1_wf Gen.gather_S10000x128_S320000x1_S320000x128_1_0_n_n_0_1_1128_wf S D d xw b := by
  subst hd hxw hS hD hb
  after_results_simp <;> rfl

/-- The last stretch: the scores are the last product plus the output bias row. -/
theorem read_tail (V : Valuation τ sig (Elt Ideal)) (y : FVec Ideal S10000x16 .f32) (b : FVec Ideal S16 .f32)
    (hy : V (Proc.devRef .tc main_v98) = y) (hb : V (Proc.devRef .tc main_arg9) = b) :
    after hostOps4 V (Proc.devRef .tc main_v101)
      = addf y (broadcastInDim S10000x16 ![0, 1] Gen.bcast_S1x16_S10000x16_0_1 (broadcastInDim S1x16 ![1] Gen.bcast_S16_S1x16_1 b)) := by
  subst hy hb
  after_results_simp <;> rfl

/-! ## Buffers carried unchanged from the first boundary on -/

variable (m : (ℓ : Loc nD τ sig) → Buf (Elt Ideal) ℓ) (ρ : Dev nD → PrngReg) (c : Dev nD)

/-- An argument array (or any buffer the first stretch does not write) is, at region 0's entry, as launched. -/
theorem W1_launch (r : Ref sig .tc) (h : r ∉ hostOps0_W) :
    W1 m ρ c (Proc.devRef .tc r) = m ((c : Thread nD τ).loc r) :=
  keep_hostOps0 (W0 m ρ c) r h

theorem W2_base (r : Ref sig .tc) (h0 : ∀ w, Pipeline.arrRef spec0 w ≠ r) :
    W2 m ρ c (Proc.devRef .tc r) = W1 m ρ c (Proc.devRef .tc r) := W2_of_ne m ρ c r h0
theorem W4_base (r : Ref sig .tc) (h0 : ∀ w, Pipeline.arrRef spec0 w ≠ r) (a1 : r ∉ hostOps1_W) (b1 : r ∉ hostOps1_1_W) :
    W4 m ρ c (Proc.devRef .tc r) = W1 m ρ c (Proc.devRef .tc r) :=
  ((keep_hostOps1_1 (W3 m ρ c) r b1).trans (keep_hostOps1 (W2 m ρ c) r a1)).trans (W2_base m ρ c r h0)
theorem W5_base (r : Ref sig .tc) (h0 : ∀ w, Pipeline.arrRef spec0 w ≠ r) (a1 : r ∉ hostOps1_W) (b1 : r ∉ hostOps1_1_W)
    (h1 : ∀ w, Pipeline.arrRef spec1 w ≠ r) :
    W5 m ρ c (Proc.devRef .tc r) = W1 m ρ c (Proc.devRef .tc r) :=
  (W5_of_ne m ρ c r h1).trans (W4_base m ρ c r h0 a1 b1)
theorem W7_base (r : Ref sig .tc) (h0 : ∀ w, Pipeline.arrRef spec0 w ≠ r) (a1 : r ∉ hostOps1_W) (b1 : r ∉ hostOps1_1_W)
    (h1 : ∀ w, Pipeline.arrRef spec1 w ≠ r) (a2 : r ∉ hostOps2_W) (b2 : r ∉ hostOps2_1_W) :
    W7 m ρ c (Proc.devRef .tc r) = W1 m ρ c (Proc.devRef .tc r) :=
  ((keep_hostOps2_1 (W6 m ρ c) r b2).trans (keep_hostOps2 (W5 m ρ c) r a2)).trans (W5_base m ρ c r h0 a1 b1 h1)
theorem W8_base (r : Ref sig .tc) (h0 : ∀ w, Pipeline.arrRef spec0 w ≠ r) (a1 : r ∉ hostOps1_W) (b1 : r ∉ hostOps1_1_W)
    (h1 : ∀ w, Pipeline.arrRef spec1 w ≠ r) (a2 : r ∉ hostOps2_W) (b2 : r ∉ hostOps2_1_W)
    (h2 : ∀ w, Pipeline.arrRef spec2 w ≠ r) :
    W8 m ρ c (Proc.devRef .tc r) = W1 m ρ c (Proc.devRef .tc r) :=
  (W8_of_ne m ρ c r h2).trans (W7_base m ρ c r h0 a1 b1 h1 a2 b2)
theorem W10_base (r : Ref sig .tc) (h0 : ∀ w, Pipeline.arrRef spec0 w ≠ r) (a1 : r ∉ hostOps1_W) (b1 : r ∉ hostOps1_1_W)
    (h1 : ∀ w, Pipeline.arrRef spec1 w ≠ r) (a2 : r ∉ hostOps2_W) (b2 : r ∉ hostOps2_1_W)
    (h2 : ∀ w, Pipeline.arrRef spec2 w ≠ r) (a3 : r ∉ hostOps3_W) (b3 : r ∉ hostOps3_1_W) :
    W10 m ρ c (Proc.devRef .tc r) = W1 m ρ c (Proc.devRef .tc r) :=
  ((keep_hostOps3_1 (W9 m ρ c) r b3).trans (keep_hostOps3 (W8 m ρ c) r a3)).trans (W8_base m ρ c r h0 a1 b1 h1 a2 b2 h2)
theorem W11_base (r : Ref sig .tc) (h0 : ∀ w, Pipeline.arrRef spec0 w ≠ r) (a1 : r ∉ hostOps1_W) (b1 : r ∉ hostOps1_1_W)
    (h1 : ∀ w, Pipeline.arrRef spec1 w ≠ r) (a2 : r ∉ hostOps2_W) (b2 : r ∉ hostOps2_1_W)
    (h2 : ∀ w, Pipeline.arrRef spec2 w ≠ r) (a3 : r ∉ hostOps3_W) (b3 : r ∉ hostOps3_1_W)
    (h3 : ∀ w, Pipeline.arrRef spec3 w ≠ r) :
    W11 m ρ c (Proc.devRef .tc r) = W1 m ρ c (Proc.devRef .tc r) :=
  (W11_of_ne m ρ c r h3).trans (W10_base m ρ c r h0 a1 b1 h1 a2 b2 h2 a3 b3)

/-! ## The run's values, as functions of the argument arrays -/

/-- The edges' sources and targets, and the factors. -/
def srcRow : IVec S320000 32 := rowOf0 (m ((c : Thread nD τ).loc main_arg1))
def dstRow : IVec S320000 32 := rowOf1 (m ((c : Thread nD τ).loc main_arg1))
def dinv : FVec Ideal S10000 .f32 := GcnOps.dinvK Gen.bcast_S_S320000 Gen.bcast_S320000_S320000x1_0 Gen.bcast_S_S10000 Gen.scatter_S10000_S320000x1_S320000_n_0_0_1_wf (dstRow m c)

/-- One layer of the first program on a product array `xw` with bias `b`. -/
def layerK (xw : FVec Ideal S10000x128 .f32) (b : FVec Ideal S128 .f32) : FVec Ideal S10000x128 .f32 :=
  GcnOps.kLayer Gen.bcast_S_S320000 Gen.bcast_S320000_S320000x1_0 Gen.bcast_S_S10000x128 Gen.bcast_S10000_S10000x1_0 Gen.bcast_S10000x1_S10000x128_0_1 Gen.bcast_S128_S1x128_1 Gen.bcast_S1x128_S10000x128_0_1 Gen.scatter_S10000x128_S320000x1_S320000x128_1_0_0_1_wf Gen.gather_S10000x128_S320000x1_S320000x128_1_0_n_n_0_1_1128_wf (srcRow m c) (dstRow m c) (dinv m c) xw b

/-- The three layers and the scores. -/
def h1 : FVec Ideal S10000x128 .f32 := layerK m c (k0_pay1 (m ((c : Thread nD τ).loc main_arg0)) (m ((c : Thread nD τ).loc main_arg2))) (m ((c : Thread nD τ).loc main_arg3))
def h2 : FVec Ideal S10000x128 .f32 := layerK m c (k1_pay1 (h1 m c) (m ((c : Thread nD τ).loc main_arg4))) (m ((c : Thread nD τ).loc main_arg5))
def h3 : FVec Ideal S10000x128 .f32 := layerK m c (k2_pay1 (h2 m c) (m ((c : Thread nD τ).loc main_arg6))) (m ((c : Thread nD τ).loc main_arg7))
def scores : FVec Ideal S10000x16 .f32 :=
  addf (k3_pay1 (h3 m c) (m ((c : Thread nD τ).loc main_arg8)))
    (broadcastInDim S10000x16 ![0, 1] Gen.bcast_S1x16_S10000x16_0_1 (broadcastInDim S1x16 ![1] Gen.bcast_S16_S1x16_1 (m ((c : Thread nD τ).loc main_arg9))))

/-! ## The fold, boundary by boundary -/

theorem W1_src : W1 m ρ c (Proc.devRef .tc main_v1) = srcRow m c := read_src (W0 m ρ c) _ rfl
theorem W1_dst : W1 m ρ c (Proc.devRef .tc main_v3) = dstRow m c := read_dst (W0 m ρ c) _ rfl
theorem W1_dinv : W1 m ρ c (Proc.devRef .tc main_v16) = dinv m c := read_dinv (W0 m ρ c) _ rfl

theorem W2_xw : W2 m ρ c (Proc.devRef .tc main_v17) = k0_pay1 (m ((c : Thread nD τ).loc main_arg0)) (m ((c : Thread nD τ).loc main_arg2)) := by
  refine (W2_arr m ρ c 2).trans ((KRegions.region0 (V1 m ρ) c).trans ?_)
  show k0_pay1 (W1 m ρ c (Proc.devRef .tc main_arg0)) (W1 m ρ c (Proc.devRef .tc main_arg2)) = _
  rw [W1_launch m ρ c main_arg0 (by decide), W1_launch m ρ c main_arg2 (by decide)]

theorem W4_h1 : W4 m ρ c (Proc.devRef .tc main_v43) = h1 m c :=
  read_layer1 (W2 m ρ c) _ _ _ _ _ ((W2_base m ρ c main_v16 (by decide)).trans (W1_dinv m ρ c)) (W2_xw m ρ c) ((W2_base m ρ c main_v1 (by decide)).trans (W1_src m ρ c))
    ((W2_base m ρ c main_v3 (by decide)).trans (W1_dst m ρ c)) ((W2_base m ρ c main_arg3 (by decide)).trans (W1_launch m ρ c main_arg3 (by decide)))

theorem W5_xw : W5 m ρ c (Proc.devRef .tc main_v44) = k1_pay1 (h1 m c) (m ((c : Thread nD τ).loc main_arg4)) := by
  refine (W5_arr m ρ c 2).trans ((KRegions.region1 (V4 m ρ) c).trans ?_)
  show k1_pay1 (W4 m ρ c (Proc.devRef .tc main_v43)) (W4 m ρ c (Proc.devRef .tc main_arg4)) = _
  rw [W4_h1 m ρ c, ((W4_base m ρ c main_arg4 (by decide) (by decide) (by decide)).trans (W1_launch m ρ c main_arg4 (by decide)))]

theorem W7_h2 : W7 m ρ c (Proc.devRef .tc main_v70) = h2 m c :=
  read_layer2 (W5 m ρ c) _ _ _ _ _ ((W5_base m ρ c main_v16 (by decide) (by decide) (by decide) (by decide)).trans (W1_dinv m ρ c)) (W5_xw m ρ c) ((W5_base m ρ c main_v1 (by decide) (by decide) (by decide) (by decide)).trans (W1_src m ρ c))
    ((W5_base m ρ c main_v3 (by decide) (by decide) (by decide) (by decide)).trans (W1_dst m ρ c)) ((W5_base m ρ c main_arg5 (by decide) (by decide) (by decide) (by decide)).trans (W1_launch m ρ c main_arg5 (by decide)))

theorem W8_xw : W8 m ρ c (Proc.devRef .tc main_v71) = k2_pay1 (h2 m c) (m ((c : Thread nD τ).loc main_arg6)) := by
  refine (W8_arr m ρ c 2).trans ((KRegions.region2 (V7 m ρ) c).trans ?_)
  show k2_pay1 (W7 m ρ c (Proc.devRef .tc main_v70)) (W7 m ρ c (Proc.devRef .tc main_arg6)) = _
  rw [W7_h2 m ρ c, ((W7_base m ρ c main_arg6 (by decide) (by decide) (by decide) (by decide) (by decide) (by decide)).trans (W1_launch m ρ c main_arg6 (by decide)))]

theorem W10_h3 : W10 m ρ c (Proc.devRef .tc main_v97) = h3 m c :=
  read_layer3 (W8 m ρ c) _ _ _ _ _ ((W8_base m ρ c main_v16 (by decide) (by decide) (by decide) (by decide) (by decide) (by decide) (by decide)).trans (W1_dinv m ρ c)) (W8_xw m ρ c) ((W8_base m ρ c main_v1 (by decide) (by decide) (by decide) (by decide) (by decide) (by decide) (by decide)).trans (W1_src m ρ c))
    ((W8_base m ρ c main_v3 (by decide) (by decide) (by decide) (by decide) (by decide) (by decide) (by decide)).trans (W1_dst m ρ c)) ((W8_base m ρ c main_arg7 (by decide) (by decide) (by decide) (by decide) (by decide) (by decide) (by decide)).trans (W1_launch m ρ c main_arg7 (by decide)))

theorem W11_y : W11 m ρ c (Proc.devRef .tc main_v98) = k3_pay1 (h3 m c) (m ((c : Thread nD τ).loc main_arg8)) := by
  refine (W11_arr m ρ c 2).trans ((KRegions.region3 (V10 m ρ) c).trans ?_)
  show k3_pay1 (W10 m ρ c (Proc.devRef .tc main_v97)) (W10 m ρ c (Proc.devRef .tc main_arg8)) = _
  rw [W10_h3 m ρ c, ((W10_base m ρ c main_arg8 (by decide) (by decide) (by decide) (by decide) (by decide) (by decide) (by decide) (by decide) (by decide)).trans (W1_launch m ρ c main_arg8 (by decide)))]

/-- The last layer's array is the last product's left operand: the region reads it and leaves it. -/
theorem W11_h3 : W11 m ρ c (Proc.devRef .tc main_v97) = h3 m c :=
  ((W11_arr m ρ c 0).trans (((dat3 (V10 m ρ) c).arrAt_in 0 rfl _).trans (A_eq3 (V10 m ρ) c 0))).trans (W10_h3 m ρ c)

/-- THE FIRST RESULT after the whole program: the third layer's array. -/
theorem W12_h3 : W12 m ρ c (Proc.devRef .tc main_v97) = h3 m c :=
  (keep_hostOps4 (W11 m ρ c) main_v97 (by decide)).trans (W11_h3 m ρ c)

/-- THE SECOND RESULT: the scores. -/
theorem W12_scores : W12 m ρ c (Proc.devRef .tc main_v101) = scores m c :=
  read_tail (W11 m ρ c) _ _ (W11_y m ρ c) ((W11_base m ρ c main_arg9 (by decide) (by decide) (by decide) (by decide) (by decide) (by decide) (by decide) (by decide) (by decide) (by decide)).trans (W1_launch m ρ c main_arg9 (by decide)))

end Cert.KernelIdeal.KFold

end
-- ==== Proof.KValue.lean ====
/-
  The first program's run, read: every weakly fair execution terminates with the third layer's array in the first result
  buffer, the scores in the second, and the argument arrays unchanged.
-/
import proofs.«146790_g51402168598780_cont_8to1c4_406_2_alg».proof.Proof.KRun
import proofs.«146790_g51402168598780_cont_8to1c4_406_2_alg».proof.Proof.KFold

set_option maxRecDepth 16384

noncomputable section

namespace Cert.KernelIdeal.KValue

open Cert.KernelIdeal Cert.KernelIdeal.Gen
open Idealize.ShloMosaic Idealize.ShloMosaic.TcCoe Idealize.SL.Sem

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v97) = KFold.h3 m c
      ∧ r.2.mem ((c.tc : Thread nD τ).loc main_v101) = KFold.scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c main_v97 (by decide)).trans (KFold.W12_h3 m ρ c),
     (h c main_v101 (by decide)).trans (KFold.W12_scores m ρ c),
     (h c main_arg0 (by decide)).trans (W12_main_arg0 m ρ c),
     (h c main_arg1 (by decide)).trans (W12_main_arg1 m ρ c),
     (h c main_arg2 (by decide)).trans (W12_main_arg2 m ρ c),
     (h c main_arg3 (by decide)).trans (W12_main_arg3 m ρ c),
     (h c main_arg4 (by decide)).trans (W12_main_arg4 m ρ c),
     (h c main_arg5 (by decide)).trans (W12_main_arg5 m ρ c),
     (h c main_arg6 (by decide)).trans (W12_main_arg6 m ρ c),
     (h c main_arg7 (by decide)).trans (W12_main_arg7 m ρ c),
     (h c main_arg8 (by decide)).trans (W12_main_arg8 m ρ c),
     (h c main_arg9 (by decide)).trans (W12_main_arg9 m ρ c)⟩)
    (KRun.run_bufs m ρ)

end Cert.KernelIdeal.KValue

end
-- ==== Proof.RefValue.lean ====
/-
  The second program's two results as functions of the argument arrays.

  Its edge list is the given one with one loop per node appended (a concatenation with 0, 1, …, 9999), so an entry
  below E reads the given list and entry E + j reads j.  Each layer is the host product of the previous layer's array
  and the layer's weights, gathered, scaled and added up along the extended list; the factors (recomputed per layer
  from the same list) are one array.
-/
import proofs.«146790_g51402168598780_cont_8to1c4_406_2_alg».proof.Proof.RefRun
import proofs.«146790_g51402168598780_cont_8to1c4_406_2_alg».proof.Proof.GcnOps

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx

/-- Row 0 / row 1 of the [2, E] edge list as a length-E vector. -/
def rowOf0 (x1 : IVec S2x320000 32) : IVec S320000 32 :=
  shapeCast _ (extractStridedSlice S1x320000 ![0, 0] x1 Gen.slices_S2x320000_S1x320000_0_0) Gen.shapeCasts_S1x320000_S320000
def rowOf1 (x1 : IVec S2x320000 32) : IVec S320000 32 :=
  shapeCast _ (extractStridedSlice S1x320000 ![1, 0] x1 Gen.slices_S2x320000_S1x320000_1_0) Gen.shapeCasts_S1x320000_S320000

/-- A row of E endpoints with the nodes' own numbers 0 … 9999 appended. -/
def catOf (row : IVec S320000 32) : IVec S330000 32 :=
  concatenate S330000 0 [⟨S320000, row⟩, ⟨S10000, iotaInDim S10000 32 0⟩] Gen.concatenates_S320000_S10000_S330000_d0

/-- An entry below E of the extended row is the row's. -/
theorem catOf_edge (row : IVec S320000 32) (e : Fin 320000) (he : e.val < 330000) :
    catOf row (ix1 ⟨e.val, he⟩) = row (ix1 e) := by
  unfold catOf
  exact concatenate_pair_apply_left (t := S330000) (s₁ := S320000) (s₂ := S10000) (0 : Fin 1) row _ _
    (ix1 ⟨e.val, he⟩) rfl (ix1 e) (fun b => by obtain rfl : b = 0 := Subsingleton.elim _ _; rfl)

/-- Entry E + j of the extended row is j. -/
theorem catOf_loop (row : IVec S320000 32) (j : Fin 10000) (hj : 320000 + j.val < 330000) :
    catOf row (ix1 ⟨320000 + j.val, hj⟩) = BitVec.ofNat 32 j.val := by
  unfold catOf
  refine (concatenate_pair_apply_right (t := S330000) (s₁ := S320000) (s₂ := S10000) (0 : Fin 1) row _ _
    (ix1 ⟨320000 + j.val, hj⟩) rfl rfl (ix1 j) (fun b hb => absurd (Subsingleton.elim _ _) hb) ?_).trans rfl
  show j.val + 320000 = 320000 + j.val
  omega

/-- The factors, as the second program computes them. -/
def dis (x1 : IVec S2x320000 32) : FVec Ideal S10000 .f32 := GcnOps.disR Gen.bcast_S_S330000 Gen.bcast_S330000_S330000x1_0 Gen.bcast_S_S10000 Gen.scatter_S10000_S330000x1_S330000_n_0_0_1_wf (catOf (rowOf1 x1))

/-- One layer of the second program on a product array `xw` with bias `b`. -/
def layerR (x1 : IVec S2x320000 32) (xw : FVec Ideal S10000x128 .f32) (b : FVec Ideal S128 .f32) : FVec Ideal S10000x128 .f32 :=
  GcnOps.rLayer Gen.bcast_S_S330000 Gen.bcast_S330000_S330000x1_0 Gen.bcast_S330000x1_S330000x128_0_1 Gen.bcast_S_S10000x128 Gen.bcast_S128_S1x128_1 Gen.bcast_S1x128_S10000x128_0_1 Gen.scatter_S10000x128_S330000x1_S330000x128_1_0_0_1_wf Gen.gather_S10000x128_S330000x1_S330000x128_1_0_n_n_0_1_1128_wf Gen.gather_S10000_S330000x1_S330000_n_0_n_n_0_1_1_wf (catOf (rowOf0 x1)) (catOf (rowOf1 x1)) (dis x1) xw b

variable (x0 : FVec Ideal S10000x128 .f32) (x1 : IVec S2x320000 32) (x2 : FVec Ideal S128x128 .f32) (x3 : FVec Ideal S128 .f32)
  (x4 : FVec Ideal S128x128 .f32) (x5 : FVec Ideal S128 .f32) (x6 : FVec Ideal S128x128 .f32) (x7 : FVec Ideal S128 .f32)
  (x8 : FVec Ideal S128x16 .f32) (x9 : FVec Ideal S16 .f32)

/-- The three layers and the scores. -/
def g1 : FVec Ideal S10000x128 .f32 :=
  layerR x1 (Host.dotGeneral dot_S10000x128_S128x128_S10000x128_1_0_0_1_n_n none x0 x2) x3
def g2 : FVec Ideal S10000x128 .f32 :=
  layerR x1 (Host.dotGeneral dot_S10000x128_S128x128_S10000x128_1_0_0_1_n_n none (g1 x0 x1 x2 x3) x4) x5
def g3 : FVec Ideal S10000x128 .f32 :=
  layerR x1 (Host.dotGeneral dot_S10000x128_S128x128_S10000x128_1_0_0_1_n_n none (g2 x0 x1 x2 x3 x4 x5) x6) x7
def scoresR : FVec Ideal S10000x16 .f32 :=
  addf (Host.dotGeneral dot_S10000x128_S128x16_S10000x16_1_0_0_1_n_n none (g3 x0 x1 x2 x3 x4 x5 x6 x7) x8)
    (broadcastInDim S10000x16 ![0, 1] Gen.bcast_S1x16_S10000x16_0_1 (broadcastInDim S1x16 ![1] Gen.bcast_S16_S1x16_1 x9))

set_option maxHeartbeats 4000000 in
/-- The run's first result term is the third layer's array. -/
theorem res0_eq (m : (ℓ : Loc nD τ sig) → Buf (Elt Ideal) ℓ) (c : Dev nD) :
    res_main_v176 (F := Ideal) m c = g3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v176
  rfl

set_option maxHeartbeats 4000000 in
/-- The run's second result term is the scores. -/
theorem res1_eq (m : (ℓ : Loc nD τ sig) → Buf (Elt Ideal) ℓ) (c : Dev nD) :
    res_main_v180 (F := Ideal) m c = scoresR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v180
  rfl

end Cert.ReferenceIdeal.RefValue

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.Bridge.lean ====
/-
  The two programs' results are the same arrays.

  The matrix products agree (a product accumulated into zero is the host's product); the second program's edge list
  is the first's with one loop per node appended, so its degrees, its factors and each of its layers are the first
  program's (the aggregation law, for the nonnegative finite factors both compute); the scores are the same product
  plus the same bias row.
-/
import proofs.«146790_g51402168598780_cont_8to1c4_406_2_alg».proof.Proof.KFold
import proofs.«146790_g51402168598780_cont_8to1c4_406_2_alg».proof.Proof.RefValue
import proofs.«146790_g51402168598780_cont_8to1c4_406_2_alg».proof.Proof.LibPlainMatmul
import proofs.«146790_g51402168598780_cont_8to1c4_406_2_alg».proof.Proof.LibPlainDot

set_option maxRecDepth 16384

noncomputable section

namespace Cert.Bridge

open Idealize.ShloMosaic Idealize.ShloMosaic.TcCoe Idealize.SL.Sem Idealize.ShloMosaic.ValueIdx
open Cert.KernelIdeal.KFold Cert.ReferenceIdeal.RefValue

/-- Region 0's product into the zero accumulator is the host's product of the same matrices. -/
theorem mm0 (A : FVec Ideal Cert.KernelIdeal.S10000x128 .f32) (B : FVec Ideal Cert.KernelIdeal.S128x128 .f32) :
    Cert.KernelIdeal.Gen.k0_pay1 (F := Ideal) A B = Host.dotGeneral Cert.ReferenceIdeal.dot_S10000x128_S128x128_S10000x128_1_0_0_1_n_n none A B := by
  funext i
  obtain ⟨a, b, rfl⟩ : ∃ (a : Fin 10000) (b : Fin 128), i = ix2 a b := ⟨i 0, i 1, eq_ix2 i⟩
  exact (matmul_plain_zero_apply none A B a b).trans (hostDotGeneral_plain_apply none A B a b).symm

/-- Region 1's product into the zero accumulator is the host's product of the same matrices. -/
theorem mm1 (A : FVec Ideal Cert.KernelIdeal.S10000x128 .f32) (B : FVec Ideal Cert.KernelIdeal.S128x128 .f32) :
    Cert.KernelIdeal.Gen.k1_pay1 (F := Ideal) A B = Host.dotGeneral Cert.ReferenceIdeal.dot_S10000x128_S128x128_S10000x128_1_0_0_1_n_n none A B := by
  have hA : shapeCast Cert.KernelIdeal.S10000x128 A Cert.KernelIdeal.Gen.shapeCasts_S10000x128_S10000x128 = A := shapeCast_self A _
  funext i
  obtain ⟨a, b, rfl⟩ : ∃ (a : Fin 10000) (b : Fin 128), i = ix2 a b := ⟨i 0, i 1, eq_ix2 i⟩
  refine Eq.trans ?_ ((matmul_plain_zero_apply none A B a b).trans (hostDotGeneral_plain_apply none A B a b).symm)
  show matmul Cert.KernelIdeal.dot_S10000x128_S128x128_S10000x128_1_0_0_1_n_n none (shapeCast Cert.KernelIdeal.S10000x128 A Cert.KernelIdeal.Gen.shapeCasts_S10000x128_S10000x128) B
      (constant Cert.KernelIdeal.S10000x128 .f32 0x00000000#32) (ix2 a b) = _
  rw [hA]
  rfl

/-- Region 2's product into the zero accumulator is the host's product of the same matrices. -/
theorem mm2 (A : FVec Ideal Cert.KernelIdeal.S10000x128 .f32) (B : FVec Ideal Cert.KernelIdeal.S128x128 .f32) :
    Cert.KernelIdeal.Gen.k2_pay1 (F := Ideal) A B = Host.dotGeneral Cert.ReferenceIdeal.dot_S10000x128_S128x128_S10000x128_1_0_0_1_n_n none A B := by
  have hA : shapeCast Cert.KernelIdeal.S10000x128 A Cert.KernelIdeal.Gen.shapeCasts_S10000x128_S10000x128 = A := shapeCast_self A _
  funext i
  obtain ⟨a, b, rfl⟩ : ∃ (a : Fin 10000) (b : Fin 128), i = ix2 a b := ⟨i 0, i 1, eq_ix2 i⟩
  refine Eq.trans ?_ ((matmul_plain_zero_apply none A B a b).trans (hostDotGeneral_plain_apply none A B a b).symm)
  show matmul Cert.KernelIdeal.dot_S10000x128_S128x128_S10000x128_1_0_0_1_n_n none (shapeCast Cert.KernelIdeal.S10000x128 A Cert.KernelIdeal.Gen.shapeCasts_S10000x128_S10000x128) B
      (constant Cert.KernelIdeal.S10000x128 .f32 0x00000000#32) (ix2 a b) = _
  rw [hA]
  rfl

/-- Region 3's product into the zero accumulator is the host's product of the same matrices. -/
theorem mm3 (A : FVec Ideal Cert.KernelIdeal.S10000x128 .f32) (B : FVec Ideal Cert.KernelIdeal.S128x16 .f32) :
    Cert.KernelIdeal.Gen.k3_pay1 (F := Ideal) A B = Host.dotGeneral Cert.ReferenceIdeal.dot_S10000x128_S128x16_S10000x16_1_0_0_1_n_n none A B := by
  have hA : shapeCast Cert.KernelIdeal.S10000x128 A Cert.KernelIdeal.Gen.shapeCasts_S10000x128_S10000x128 = A := shapeCast_self A _
  funext i
  obtain ⟨a, b, rfl⟩ : ∃ (a : Fin 10000) (b : Fin 16), i = ix2 a b := ⟨i 0, i 1, eq_ix2 i⟩
  refine Eq.trans ?_ ((matmul_plain_zero_apply none A B a b).trans (hostDotGeneral_plain_apply none A B a b).symm)
  show matmul Cert.KernelIdeal.dot_S10000x128_S128x16_S10000x16_1_0_0_1_n_n none (shapeCast Cert.KernelIdeal.S10000x128 A Cert.KernelIdeal.Gen.shapeCasts_S10000x128_S10000x128) B
      (constant Cert.KernelIdeal.S10000x16 .f32 0x00000000#32) (ix2 a b) = _
  rw [hA]
  rfl

variable (m : (ℓ : Loc Cert.KernelIdeal.nD Cert.KernelIdeal.τ Cert.KernelIdeal.sig) → Buf (Elt Ideal) ℓ) (c : Dev Cert.KernelIdeal.nD)

/-- The factors agree. -/
theorem dis_eq : Cert.ReferenceIdeal.RefValue.dis (m ((c : Thread Cert.KernelIdeal.nD Cert.KernelIdeal.τ).loc Cert.KernelIdeal.main_arg1)) = Cert.KernelIdeal.KFold.dinv m c := by
  unfold Cert.ReferenceIdeal.RefValue.dis Cert.KernelIdeal.KFold.dinv Cert.KernelIdeal.KFold.dstRow
  apply GcnOps.disR_eq
  · rfl
  · intro e he
    exact Cert.ReferenceIdeal.RefValue.catOf_edge _ e he
  · intro j hj
    exact Cert.ReferenceIdeal.RefValue.catOf_loop _ j hj

/-- One layer agrees, on any product array and bias. -/
theorem layer_eq (xw : FVec Ideal Cert.KernelIdeal.S10000x128 .f32) (b : FVec Ideal Cert.KernelIdeal.S128 .f32) :
    Cert.KernelIdeal.KFold.layerK m c xw b = Cert.ReferenceIdeal.RefValue.layerR (m ((c : Thread Cert.KernelIdeal.nD Cert.KernelIdeal.τ).loc Cert.KernelIdeal.main_arg1)) xw b := by
  unfold Cert.KernelIdeal.KFold.layerK Cert.ReferenceIdeal.RefValue.layerR
  rw [dis_eq m c]
  unfold Cert.KernelIdeal.KFold.srcRow Cert.KernelIdeal.KFold.dstRow
  apply GcnOps.layer_eq
  · rfl
  · intro e he
    exact Cert.ReferenceIdeal.RefValue.catOf_edge _ e he
  · intro e he
    exact Cert.ReferenceIdeal.RefValue.catOf_edge _ e he
  · intro j hj
    exact Cert.ReferenceIdeal.RefValue.catOf_loop _ j hj
  · intro j hj
    exact Cert.ReferenceIdeal.RefValue.catOf_loop _ j hj
  · intro q
    exact (GcnOps.dinvK_nonneg_finite _ _ _ _ _ q).1
  · intro q
    exact (GcnOps.dinvK_nonneg_finite _ _ _ _ _ q).2

/-- THE FIRST RESULT: the third layer's arrays agree. -/
theorem h3_eq : Cert.KernelIdeal.KFold.h3 m c
    = Cert.ReferenceIdeal.RefValue.g3 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  unfold Cert.KernelIdeal.KFold.h3 Cert.KernelIdeal.KFold.h2 Cert.KernelIdeal.KFold.h1
    Cert.ReferenceIdeal.RefValue.g3 Cert.ReferenceIdeal.RefValue.g2 Cert.ReferenceIdeal.RefValue.g1
  rw [layer_eq, layer_eq, layer_eq, mm0, mm1, mm2]

/-- THE SECOND RESULT: the scores agree. -/
theorem scores_eq : Cert.KernelIdeal.KFold.scores m c
    = Cert.ReferenceIdeal.RefValue.scoresR (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
  unfold Cert.KernelIdeal.KFold.scores Cert.ReferenceIdeal.RefValue.scoresR
  rw [h3_eq m c, mm3]

end Cert.Bridge

end
-- ==== Proof.lean ====
/-
  The certificate of a three-layer graph convolution: a kernel program (each layer one matrix product on the
  TensorCore, then a scatter-add of the scaled product rows along the edges on top of the rows themselves, scaled by the
  target's factor) against a reference that appends one self loop per node to the edge list and scatter-adds the product
  rows scaled by both endpoints' factors.

  The factors are (1 + the number of edges into a node)^(-1/2): real, positive, finite, the same in both programs (the
  reference counts the loop with the edges and guards a division that never occurs).  A nonnegative finite factor
  distributes over a sum of extended reals, so node p's factor times (its own scaled row plus the sum over the edges
  into p) is the reference's sum over the extended list, entry by entry; no finiteness of the features is used, and the
  precondition is not opened.  The products agree because a product accumulated into zero is the host's product.

  The three frames: the two kernel programs' are the generated ones; the reference's is its run with the results dropped.
  The idealization rewrote nothing, so `preserves` is trivial.
-/
import proofs.«146790_g51402168598780_cont_8to1c4_406_2_alg».proof.Defs
import proofs.«146790_g51402168598780_cont_8to1c4_406_2_alg».proof.Proof.Gen.Kernel
import proofs.«146790_g51402168598780_cont_8to1c4_406_2_alg».proof.Proof.Gen.Kernel.Frame
import proofs.«146790_g51402168598780_cont_8to1c4_406_2_alg».proof.Proof.Gen.KernelIdeal
import proofs.«146790_g51402168598780_cont_8to1c4_406_2_alg».proof.Proof.Gen.KernelIdeal.Frame
import proofs.«146790_g51402168598780_cont_8to1c4_406_2_alg».proof.Proof.Gen.ReferenceIdeal
import proofs.«146790_g51402168598780_cont_8to1c4_406_2_alg».proof.Proof.Gen.Pre_finite_inputs
import proofs.«146790_g51402168598780_cont_8to1c4_406_2_alg».proof.Proof.RefRun
import proofs.«146790_g51402168598780_cont_8to1c4_406_2_alg».proof.Proof.KValue
import proofs.«146790_g51402168598780_cont_8to1c4_406_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the third layer's array and the scores, which are the same arrays of arguments that
    agree. -/
theorem algebraic : Cert.algebraic_KernelIdeal_ReferenceIdeal := by
  intro m ρ m' ρ' _ hagree
  refine ⟨fun c => Cert.KernelIdeal.KFold.h3 m c, fun c => Cert.KernelIdeal.KFold.scores m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefValue.res0_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1]
    exact (Cert.Bridge.h3_eq m c).symm
  · rw [Cert.ReferenceIdeal.RefValue.res1_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (Cert.Bridge.scores_eq m c).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
